-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_keep" .f32 0x3FA00000#32 ((16777216 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S100000x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S100000x128 .f32 := Host.absf main_arg4
  let main_cst_6 : FVec F S_ .f32 := constant S_ .f32 0x7F800000#32
  let main_v20 : FVec F S100000x128 .f32 := broadcastInDim S100000x128 ![] bcast_S_S100000x128 main_cst_6
  let main_v21 : IVec S100000x128 1 := cmpf .olt main_v19 main_v20
  let main_c_7 : IVec S_ 1 := constantI S_ 1 1#1
  let main_v22 : IVec S_ 1 := (fun x v => Host.reduce IntOp.andi x v reducesTo_S100000x128_S_d0_1 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128x128 .f32) (main_arg3 : FVec F S128x128 .f32) (main_arg4 : FVec F S100000x128 .f32) (main_arg5 : IVec S600000 32) (main_arg6 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S600000 : Shape := ⟨1, ![600000]⟩
abbrev S128x256 : Shape := ⟨2, ![128, 256]⟩
abbrev S4000x128 : Shape := ⟨2, ![4000, 128]⟩
abbrev S4000x256 : Shape := ⟨2, ![4000, 256]⟩
abbrev S_ : Shape := ⟨0, ![]⟩
abbrev S600000x1 : Shape := ⟨2, ![600000, 1]⟩
abbrev S600000x128 : Shape := ⟨2, ![600000, 128]⟩
abbrev S1200000x128 : Shape := ⟨2, ![1200000, 128]⟩
abbrev S1200000 : Shape := ⟨1, ![1200000]⟩
abbrev S1200000x1 : Shape := ⟨2, ![1200000, 1]⟩

abbrev nBuf : Space → Nat
  | .hbm => 35
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S100000x128, .f32⟩
  | .hbm, ⟨5, _⟩ => ⟨S600000, .i32⟩
  | .hbm, ⟨6, _⟩ => ⟨S600000, .i32⟩
  | .hbm, ⟨7, _⟩ => ⟨S128x256, .f32⟩
  | .hbm, ⟨8, _⟩ => ⟨S100000x128, .f32⟩
  | .hbm, ⟨9, _⟩ => ⟨S100000x128, .f32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S600000x128, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S1200000x128, .f32⟩
  | .hbm, ⟨29, _⟩ => ⟨S1200000, .i32⟩
  | .hbm, ⟨30, _⟩ => ⟨S_, .f32⟩
  | .hbm, ⟨31, _⟩ => ⟨S100000x128, .f32⟩
  | .hbm, ⟨32, _⟩ => ⟨S1200000x1, .i32⟩
  | .hbm, ⟨33, _⟩ => ⟨S100000x128, .f32⟩
  | .hbm, ⟨34, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x256, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S4000x128, .f32⟩
  | .local _ .vmem, ⟨15, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  concatenates_S128x128_S128x128_S128x256_d1 : Shape.Concatenates [S128x128, S128x128] S128x256 1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S4000x256_o0_0_S4000x128 : S4000x256.Slices ![0, 0] S4000x128
  slices_S4000x256_o0_128_S4000x128 : S4000x256.Slices ![0, 128] S4000x128
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S1200000x128_d0 : Shape.Concatenates [S600000x128, S600000x128] S1200000x128 0
  concatenates_S600000_S600000_S1200000_d0 : Shape.Concatenates [S600000, S600000] S1200000 0
  bcast_S_S100000x128 : S_.BroadcastsInDim S100000x128 (![] : Fin 0 → Fin S100000x128.rank)
  bcast_S1200000_S1200000x1_0 : S1200000.BroadcastsInDim S1200000x1 (![0] : Fin 1 → Fin S1200000x1.rank)
  inb_S128x128_S128x128_0_0 : ∀ a, (![0, 0] : Fin 2 → Nat) a + S128x128.size a ≤ S128x128.size a
  h_S128x128 : 0 < S128x128.numel
  natLt_1_32 : 1 < 32
  shapeCasts_S4000x128_S4000x128 : S4000x128.ShapeCasts S4000x128
  dot_S4000x128_S128x256_S4000x256_1_0_0_1_n_n_wf : DotDims.WF S4000x128 S128x256 S4000x256 [1] [0] [0] [1] [] []
  gather_S100000x128_S600000x1_S600000x128_1_0_n_n_0_1_1128_wf : GatherDims.WF S100000x128 S600000x1 S600000x128 [1] [0] [] [0] [] 1 ![1, 128]
  scatter_S100000x128_S1200000x1_S1200000x128_1_0_0_1_wf : ScatterDims.WF S100000x128 S1200000x1 S1200000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)

variable [Facts₀]

def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S1200000x1_S1200000x128_1_0_0_1 : ScatterDims S100000x128 S1200000x1 S1200000x128 where
  updateWindowDims := [1]
  insertedWindowDims := [0]
  scatterDimsToOperandDims := [0]
  indexVectorDim := 1
  wf := scatter_S100000x128_S1200000x1_S1200000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S4000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S600000 : Shape := ⟨1, ![600000]⟩
abbrev S_ : Shape := ⟨0, ![]⟩
abbrev S600000x1 : Shape := ⟨2, ![600000, 1]⟩
abbrev S600000x128 : Shape := ⟨2, ![600000, 128]⟩

abbrev nBuf : Space → Nat
  | .hbm => 49
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S100000x128, .f32⟩
  | .hbm, ⟨5, _⟩ => ⟨S600000, .i32⟩
  | .hbm, ⟨6, _⟩ => ⟨S600000, .i32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000x128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S600000x128, .f32⟩
  | .hbm, ⟨26, _⟩ => ⟨S600000x128, .f32⟩
  | .hbm, ⟨27, _⟩ => ⟨S_, .f32⟩
  | .hbm, ⟨28, _⟩ => ⟨S100000x128, .f32⟩
  | .hbm, ⟨29, _⟩ => ⟨S100000x128, .i1⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S600000x1, .i32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S600000x1, .i32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  gather_S100000x128_S600000x1_S600000x128_1_0_n_n_0_1_1128_wf : GatherDims.WF S100000x128 S600000x1 S600000x128 [1] [0] [] [0] [] 1 ![1, 128]
  dot_S600000x128_S128x128_S600000x128_1_0_0_1_n_n_wf : DotDims.WF S600000x128 S128x128 S600000x128 [1] [0] [0] [1] [] []
  dot_S100000x128_S128x128_S100000x128_1_0_0_1_n_n_wf : DotDims.WF S100000x128 S128x128 S100000x128 [1] [0] [0] [1] [] []
  scatter_S100000x128_S600000x1_S600000x128_1_0_0_1_wf : ScatterDims.WF S100000x128 S600000x1 S600000x128 [1] [0] [0] 1

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.KernelRun.lean ====
/-
  The idealized kernel's run with its RESULT named. The run's last thread state holds every unscoped buffer at the
  contents the fold through @main leaves (`W4`): the argument arrays as launched, and the result buffer — the array of
  the second region's output window — at what that region's write-backs leave, `(dat1 (V3 m ρ) c).arrAt 4 N`.
-/
import proofs.«142786_j206158430367_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The result buffer is the array of the second region's output window. -/
theorem result_arr (c : Dev nD) :
    W4 m ρ c (Proc.devRef .tc main_v21) = (dat1 (V3 m ρ) c).arrAt 4 cfg1.N :=
  W4_arr m ρ c 4

set_option backward.isDefEq.respectTransparency.types false in
/-- Every weakly fair execution of @main terminates, faults nowhere, and ends with the result buffer at the second
    region's final output array and the argument arrays as launched. -/
theorem run : θ_run defs (onTc (τ := τ) (main (F := F))) ⟨m, fun _ => 0, ρ⟩ (fun r => ∀ c : Dev nD,
      r.2.mem ((c.tc : Thread nD τ).loc main_v21) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v21 (by decide))).trans (result_arr m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.RunValue

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.MmBody.lean ====
/-
  The first kernel's body at one element. It multiplies the block of node features x (4000 by 128) by the two
  weights laid side by side w = [W_f | W_b] (128 by 256) and stores the left and the right half of the product:
      left[p,q] = ∑ k, x[p,k] * w[k,q],      right[p,q] = ∑ k, x[p,k] * w[k,128+q].
  At the ideal values the product into a zero accumulator is the plain sum and a change of float format the identity.
-/
import proofs.«142786_j206158430367_2_alg».proof.Proof.Gen.KernelIdeal.Skeleton
import proofs.«142786_j206158430367_2_alg».proof.Proof.LibMatmulSum
import Idealize.ShloMosaic.Lib.Pipeline.Value
import Idealize.ShloMosaic.Lib.ValueIdx
import Idealize.ShloMosaic.PureOps.Ideal.Laws

noncomputable section

namespace Cert.KernelIdeal.Bodies

open Idealize.ShloMosaic Idealize.ShloMosaic.ValueIdx Cert.KernelIdeal Cert.KernelIdeal.Gen

local notation "DM" => dot_S4000x128_S128x256_S4000x256_1_0_0_1_n_n

/-! ## The product record's coordinates -/

theorem dm_l0 (i : S4000x256.Idx) (q : DotDims.contr DM |>.Idx) : (DotDims.lhsIdx DM i q 0).val = (i 0).val := by
  unfold DotDims.lhsIdx
  rw [dif_neg (show ¬(0 : Fin S4000x128.rank) ∈ DotDims.lhsBatch DM by decide), dif_pos (show (0 : Fin S4000x128.rank) ∈ DotDims.lhsNonContracting DM by decide)]
  rfl
theorem dm_l1 (i : S4000x256.Idx) (q : DotDims.contr DM |>.Idx) : (DotDims.lhsIdx DM i q 1).val = (q ⟨0, by decide⟩).val :=
  DotDims.lhsIdx_val_of_single DM rfl i q
theorem dm_r0 (i : S4000x256.Idx) (q : DotDims.contr DM |>.Idx) : (DotDims.rhsIdx DM i q 0).val = (q ⟨0, by decide⟩).val :=
  DotDims.rhsIdx_val_of_single DM rfl i q
theorem dm_r1 (i : S4000x256.Idx) (q : DotDims.contr DM |>.Idx) : (DotDims.rhsIdx DM i q 1).val = (i 1).val := by
  unfold DotDims.rhsIdx
  rw [dif_neg (show ¬(1 : Fin S128x256.rank) ∈ DotDims.rhsBatch DM by decide), dif_pos (show (1 : Fin S128x256.rank) ∈ DotDims.rhsNonContracting DM by decide)]
  rfl

/-- The whole product at element (p, q), q over all 256 columns. -/
theorem product_at (x : Vec Ideal S4000x128 .f32) (w : Vec Ideal S128x256 .f32) (p : Fin 4000) (q : Fin 256) :
    k0_pay1 (F := Ideal) x w (ix2 p q) = ∑ k : Fin 128, x (ix2 p k) * w (ix2 k q) := by
  have hmm := Cert.GraphConv.matmul_zero_sum (R := 4000) (K := 128) (N := 256) (φ₁ := .bf16) (φ₂ := .bf16) DM none rfl rfl
    dm_l0 dm_l1 dm_r0 dm_r1 (truncf .bf16 x bitsLt_bf16_f32)
    (truncf .bf16 (shapeCast S128x256 w shapeCasts_S128x256_S128x256) bitsLt_bf16_f32) (ix2 p q)
  have hsc : shapeCast S128x256 w shapeCasts_S128x256_S128x256 = w := shapeCast_self w _
  unfold k0_pay1
  show FloatOps.matmul DM none (truncf .bf16 x bitsLt_bf16_f32)
      (truncf .bf16 (shapeCast S128x256 w shapeCasts_S128x256_S128x256) bitsLt_bf16_f32)
      (constant (F := Ideal) S4000x256 .f32 0x00000000#32) (ix2 p q) = _
  rw [hmm, hsc]
  rfl

/-- The left half of a 256-column vector read at a column. -/
theorem slice_left (y : FVec Ideal S4000x256 .f32) (p : Fin 4000) (q : Fin 128) :
    extractStridedSlice S4000x128 ![0, 0] y slices_S4000x256_o0_0_S4000x128 (ix2 p q) = y (ix2 p (⟨q.val, by omega⟩ : Fin 256)) := by
  refine extractStridedSlice_apply ![0, 0] y slices_S4000x256_o0_0_S4000x128 (ix2 p q) (ix2 p (⟨q.val, by omega⟩ : Fin 256)) ?_
  intro a
  match a with
  | ⟨0, _⟩ => show p.val = 0 + p.val; omega
  | ⟨1, _⟩ => show q.val = 0 + q.val; omega

/-- The right half of a 256-column vector read at a column. -/
theorem slice_right (y : FVec Ideal S4000x256 .f32) (p : Fin 4000) (q : Fin 128) :
    extractStridedSlice S4000x128 ![0, 128] y slices_S4000x256_o0_128_S4000x128 (ix2 p q) = y (ix2 p (⟨128 + q.val, by omega⟩ : Fin 256)) := by
  refine extractStridedSlice_apply ![0, 128] y slices_S4000x256_o0_128_S4000x128 (ix2 p q) (ix2 p (⟨128 + q.val, by omega⟩ : Fin 256)) ?_
  intro a
  match a with
  | ⟨0, _⟩ => show p.val = 0 + p.val; omega
  | ⟨1, _⟩ => show 128 + q.val = 128 + q.val; rfl

/-- The left half: columns 0 … 127 of the product. -/
theorem left_at (x : Vec Ideal S4000x128 .f32) (w : Vec Ideal S128x256 .f32) (p : Fin 4000) (q : Fin 128) :
    k0_pay2 (F := Ideal) x w (ix2 p q) = ∑ k : Fin 128, x (ix2 p k) * w (ix2 k (⟨q.val, by omega⟩ : Fin 256)) :=
  (slice_left (k0_pay1 (F := Ideal) x w) p q).trans (product_at x w p _)

/-- The right half: columns 128 … 255 of the product. -/
theorem right_at (x : Vec Ideal S4000x128 .f32) (w : Vec Ideal S128x256 .f32) (p : Fin 4000) (q : Fin 128) :
    k0_pay3 (F := Ideal) x w (ix2 p q) = ∑ k : Fin 128, x (ix2 p k) * w (ix2 k (⟨128 + q.val, by omega⟩ : Fin 256)) :=
  (slice_right (k0_pay1 (F := Ideal) x w) p q).trans (product_at x w p _)

end Cert.KernelIdeal.Bodies

end
-- ==== Proof.Region0.lean ====
/-
  The first region's two output arrays. At grid point t the blocks of the node features and of both outputs are rows
  4000 t … 4000 t + 3999 of their arrays and the block of the side-by-side weight w = [W_f | W_b] is all of it. So
  point t writes back those rows of
      left[n,c]  = ∑ k, x[n,k] * w[k,c]        and        right[n,c] = ∑ k, x[n,k] * w[k,128+c],
  and since the 25 blocks tile the 100000 rows, the two arrays end holding these functions of the arrays as the
  region finds them.
-/
import proofs.«142786_j206158430367_2_alg».proof.Proof.Gen.KernelIdeal.Frame
import proofs.«142786_j206158430367_2_alg».proof.Proof.MmBody

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Bodies

variable (V : (c : Dev nD) → (b : Ref sig .tc) → Buf (Elt Ideal) ((c : Thread nD τ).loc b))

theorem offsets_zero : (![0, 0] : Fin 2 → Nat) = fun _ => 0 := funext fun a => by fin_cases a <;> rfl

/-- Rows of x times the left half of the side-by-side weight. -/
def leftProduct (x : S100000x128.Idx → EReal) (w : S128x256.Idx → EReal) : S100000x128.Idx → EReal := fun i =>
  ∑ k : Fin 128, x (ix2 (i 0) k) * w (ix2 k (⟨(i 1).val, by have := idx2_lt1 i; omega⟩ : Fin 256))
/-- Rows of x times the right half of the side-by-side weight. -/
def rightProduct (x : S100000x128.Idx → EReal) (w : S128x256.Idx → EReal) : S100000x128.Idx → EReal := fun i =>
  ∑ k : Fin 128, x (ix2 (i 0) k) * w (ix2 k (⟨128 + (i 1).val, by have := idx2_lt1 i; omega⟩ : Fin 256))

/-- The block index maps over the grid: the three row-tiled windows sit at block row t, the weight at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 25 := by have h := t.isLt; have e : cfg0.N = 25 := N_0; omega

/-- Row p of point t's block is row 4000 t + p of the array. -/
def rowAt (t : Fin cfg0.N) (p : Fin 4000) : Fin 100000 := ⟨t.val * 4000 + p.val, by have := point_lt t; have := p.isLt; omega⟩

theorem emb0 (t : Fin cfg0.N) (p : Fin 4000) (q : Fin 128) : ((cfg0.win 0).blk t).view.emb (ix2 p q) = ix2 (rowAt t p) q := by
  obtain ⟨e0, e1, -⟩ := block_indices t
  funext a; apply Fin.ext
  match a with
  | ⟨0, _⟩ => show win0_0.index t (0 : Fin 2) * 4000 + 1 * p.val = t.val * 4000 + p.val; omega
  | ⟨1, _⟩ => show win0_0.index t (1 : Fin 2) * 128 + 1 * q.val = q.val; omega
theorem emb1 (t : Fin cfg0.N) (k : Fin 128) (q : Fin 256) : ((cfg0.win 1).blk t).view.emb (ix2 k q) = ix2 k q := by
  obtain ⟨-, -, e0, e1, -⟩ := block_indices t
  funext a; apply Fin.ext
  match a with
  | ⟨0, _⟩ => show win0_1.index t (0 : Fin 2) * 128 + 1 * k.val = k.val; omega
  | ⟨1, _⟩ => show win0_1.index t (1 : Fin 2) * 256 + 1 * q.val = q.val; omega
theorem emb2 (t : Fin cfg0.N) (p : Fin 4000) (q : Fin 128) : ((cfg0.win 2).blk t).view.emb (ix2 p q) = ix2 (rowAt t p) q := by
  obtain ⟨-, -, -, -, e0, e1, -⟩ := block_indices t
  funext a; apply Fin.ext
  match a with
  | ⟨0, _⟩ => show win0_2.index t (0 : Fin 2) * 4000 + 1 * p.val = t.val * 4000 + p.val; omega
  | ⟨1, _⟩ => show win0_2.index t (1 : Fin 2) * 128 + 1 * q.val = q.val; omega
theorem emb3 (t : Fin cfg0.N) (p : Fin 4000) (q : Fin 128) : ((cfg0.win 3).blk t).view.emb (ix2 p q) = ix2 (rowAt t p) q := by
  obtain ⟨-, -, -, -, -, -, e0, e1⟩ := block_indices t
  funext a; apply Fin.ext
  match a with
  | ⟨0, _⟩ => show win0_3.index t (0 : Fin 2) * 4000 + 1 * p.val = t.val * 4000 + p.val; omega
  | ⟨1, _⟩ => show win0_3.index t (1 : Fin 2) * 128 + 1 * q.val = q.val; omega

theorem x_block (c : Dev nD) (t : Fin cfg0.N) (p : Fin 4000) (k : Fin 128) :
    iblk0 V c 0 t (ix2 p k) = V c main_arg0 (ix2 (rowAt t p) k) := by
  show V c main_arg0 (((cfg0.win 0).blk t).view.emb (ix2 p k)) = _
  rw [emb0]
theorem w_block (c : Dev nD) (t : Fin cfg0.N) (k : Fin 128) (q : Fin 256) :
    iblk0 V c 1 t (ix2 k q) = V c main_v0 (ix2 k q) := by
  show V c main_v0 (((cfg0.win 1).blk t).view.emb (ix2 k q)) = _
  rw [emb1]

/-- What point t writes back through the first output window is block t of the left product. -/
theorem flushed_left (c : Dev nD) (t : Fin cfg0.N) :
    (dat0 V c).flushed 2 t = ((cfg0.win 2).blk t).view.read (Elt Ideal) (leftProduct (V c main_arg0) (V c main_v0)) := by
  show (cfg0.win 2).cut (grid0.coords t) ((dat0 V c).after 2 t) = _
  rw [after0_2]
  unfold out0_2
  rw [View.canon_unit_zero offsets_zero]
  simp only [View.ld_unit_zero (S := S4000x128) offsets_zero, View.ld_unit_zero (S := S128x256) offsets_zero]
  funext j
  obtain ⟨p, q, rfl⟩ : ∃ (p : Fin 4000) (q : Fin 128), j = ix2 p q := ⟨j 0, j 1, eq_ix2 j⟩
  show k0_pay2 (F := Ideal) (iblk0 V c 0 t) (iblk0 V c 1 t) (ix2 p q)
    = leftProduct (V c main_arg0) (V c main_v0) (((cfg0.win 2).blk t).view.emb (ix2 p q))
  refine (left_at (iblk0 V c 0 t) (iblk0 V c 1 t) p q).trans ?_
  rw [emb2]
  simp only [x_block V c t, w_block V c t]
  rfl

/-- What point t writes back through the second output window is block t of the right product. -/
theorem flushed_right (c : Dev nD) (t : Fin cfg0.N) :
    (dat0 V c).flushed 3 t = ((cfg0.win 3).blk t).view.read (Elt Ideal) (rightProduct (V c main_arg0) (V c main_v0)) := by
  show (cfg0.win 3).cut (grid0.coords t) ((dat0 V c).after 3 t) = _
  rw [after0_3]
  unfold out0_3
  rw [View.canon_unit_zero offsets_zero]
  simp only [View.ld_unit_zero (S := S4000x128) offsets_zero, View.ld_unit_zero (S := S128x256) offsets_zero]
  funext j
  obtain ⟨p, q, rfl⟩ : ∃ (p : Fin 4000) (q : Fin 128), j = ix2 p q := ⟨j 0, j 1, eq_ix2 j⟩
  show k0_pay3 (F := Ideal) (iblk0 V c 0 t) (iblk0 V c 1 t) (ix2 p q)
    = rightProduct (V c main_arg0) (V c main_v0) (((cfg0.win 3).blk t).view.emb (ix2 p q))
  refine (right_at (iblk0 V c 0 t) (iblk0 V c 1 t) p q).trans ?_
  rw [emb3]
  simp only [x_block V c t, w_block V c t]
  rfl

theorem mem_blk2 (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v1_0).slice (win0_2.rect t)).set ↔ _
  rw [View.set_slice_whole, Rect.mem_set_unit]
  exact Iff.rfl
theorem mem_blk3 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v1_1).slice (win0_3.rect t)).set ↔ _
  rw [View.set_slice_whole, Rect.mem_set_unit]
  exact Iff.rfl

theorem cover2 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  refine ⟨⟨(i 0).val / 4000, by omega⟩, flush0_2 _, ?_⟩
  rw [mem_blk2]
  obtain ⟨-, -, -, -, e0, e1, -⟩ := block_indices ⟨(i 0).val / 4000, by omega⟩
  intro a
  match a with
  | ⟨0, _⟩ =>
    show win0_2.index _ (0 : Fin 2) * 4000 ≤ (i 0).val ∧ (i 0).val < win0_2.index _ (0 : Fin 2) * 4000 + 4000
    rw [e0]; show (i 0).val / 4000 * 4000 ≤ (i 0).val ∧ (i 0).val < (i 0).val / 4000 * 4000 + 4000; omega
  | ⟨1, _⟩ =>
    show win0_2.index _ (1 : Fin 2) * 128 ≤ (i 1).val ∧ (i 1).val < win0_2.index _ (1 : Fin 2) * 128 + 128
    rw [e1]; omega
theorem cover3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  refine ⟨⟨(i 0).val / 4000, by omega⟩, flush0_3 _, ?_⟩
  rw [mem_blk3]
  obtain ⟨-, -, -, -, -, -, e0, e1⟩ := block_indices ⟨(i 0).val / 4000, by omega⟩
  intro a
  match a with
  | ⟨0, _⟩ =>
    show win0_3.index _ (0 : Fin 2) * 4000 ≤ (i 0).val ∧ (i 0).val < win0_3.index _ (0 : Fin 2) * 4000 + 4000
    rw [e0]; show (i 0).val / 4000 * 4000 ≤ (i 0).val ∧ (i 0).val < (i 0).val / 4000 * 4000 + 4000; omega
  | ⟨1, _⟩ =>
    show win0_3.index _ (1 : Fin 2) * 128 ≤ (i 1).val ∧ (i 1).val < win0_3.index _ (1 : Fin 2) * 128 + 128
    rw [e1]; omega

/-- The first output array after the region. -/
theorem final_left (c : Dev nD) : (dat0 V c).arrAt 2 cfg0.N = leftProduct (V c main_arg0) (V c main_v0) :=
  (dat0 V c).arrAt_eq_of_cover 2 _ (fun t _ => flushed_left V c t) cover2
/-- The second output array after the region. -/
theorem final_right (c : Dev nD) : (dat0 V c).arrAt 3 cfg0.N = rightProduct (V c main_arg0) (V c main_v0) :=
  (dat0 V c).arrAt_eq_of_cover 3 _ (fun t _ => flushed_right V c t) cover3

end Cert.KernelIdeal.Region0

end
-- ==== Proof.CombineBody.lean ====
/-
  The combine kernel's body at one element of its block. With `x` the block of node features, `ws` the self-loop
  weight, `u` the block of dropout draws and `a` the block of aggregated messages, element (p, q) of what the body
  stores is
      max (a[p,q] + (∑ k, x[p,k] * ws[k,q]) * (keep(u[p,q]) * c), 0)
  where keep is the 0/1 value of the comparison `u < 0.8` and c the named reciprocal scale: the matrix product is a
  plain sum at the ideal values (a change of float format is the identity, the accumulator is zero), and every
  other operation acts element by element.
-/
import proofs.«142786_j206158430367_2_alg».proof.Proof.Gen.KernelIdeal.Skeleton
import proofs.«142786_j206158430367_2_alg».proof.Proof.LibMatmulSum
import Idealize.ShloMosaic.Lib.Pipeline.Value
import Idealize.ShloMosaic.Lib.ValueIdx
import Idealize.ShloMosaic.PureOps.Ideal.Laws

noncomputable section

namespace Cert.KernelIdeal.Bodies

open Idealize.ShloMosaic Idealize.ShloMosaic.ValueIdx Cert.KernelIdeal Cert.KernelIdeal.Gen

local notation "DW" => dot_S4000x128_S128x128_S4000x128_1_0_0_1_n_n

/-! ## The product record's coordinates: rows from the output index, the contracted axis from the sum's index -/

theorem dw_l0 (i : S4000x128.Idx) (q : DotDims.contr DW |>.Idx) : (DotDims.lhsIdx DW i q 0).val = (i 0).val := by
  unfold DotDims.lhsIdx
  rw [dif_neg (show ¬(0 : Fin S4000x128.rank) ∈ DotDims.lhsBatch DW by decide), dif_pos (show (0 : Fin S4000x128.rank) ∈ DotDims.lhsNonContracting DW by decide)]
  rfl
theorem dw_l1 (i : S4000x128.Idx) (q : DotDims.contr DW |>.Idx) : (DotDims.lhsIdx DW i q 1).val = (q ⟨0, by decide⟩).val :=
  DotDims.lhsIdx_val_of_single DW rfl i q
theorem dw_r0 (i : S4000x128.Idx) (q : DotDims.contr DW |>.Idx) : (DotDims.rhsIdx DW i q 0).val = (q ⟨0, by decide⟩).val :=
  DotDims.rhsIdx_val_of_single DW rfl i q
theorem dw_r1 (i : S4000x128.Idx) (q : DotDims.contr DW |>.Idx) : (DotDims.rhsIdx DW i q 1).val = (i 1).val := by
  unfold DotDims.rhsIdx
  rw [dif_neg (show ¬(1 : Fin S128x128.rank) ∈ DotDims.rhsBatch DW by decide), dif_pos (show (1 : Fin S128x128.rank) ∈ DotDims.rhsNonContracting DW by decide)]
  rfl

/-- The 0/1 value of the dropout comparison at one draw. -/
def keepBit (u : EReal) : EReal :=
  FloatOps.sitofp (F := Ideal) .f32 ((FloatOps.cmpf (F := Ideal) (φ := .f32) .olt u (Scalar.ofBits (F := Ideal) .f32 0x3F4CCCCD#32)).setWidth 32)

/-- The named reciprocal scale. -/
def invKeep : EReal := Named.named (F := Ideal) κ "inv_keep" (φ := .f32) 0x3FA00000#32

/-- The body's stored value at element (p, q). -/
theorem combine_at (x : Vec Ideal S4000x128 .f32) (ws : Vec Ideal S128x128 .f32) (u a : Vec Ideal S4000x128 .f32)
    (p : Fin 4000) (q : Fin 128) :
    k1_pay1 (F := Ideal) x ws u a (ix2 p q)
      = max (a (ix2 p q) + (∑ k : Fin 128, x (ix2 p k) * ws (ix2 k q)) * (keepBit (u (ix2 p q)) * invKeep))
          (Ideal.ofBits .f32 0x00000000#32) := by
  have hmm := Cert.GraphConv.matmul_zero_sum (R := 4000) (K := 128) (N := 128) (φ₁ := .bf16) (φ₂ := .bf16) DW none rfl rfl
    dw_l0 dw_l1 dw_r0 dw_r1 (truncf .bf16 x bitsLt_bf16_f32) (truncf .bf16 ws bitsLt_bf16_f32) (ix2 p q)
  have hsc : shapeCast S4000x128 a shapeCasts_S4000x128_S4000x128 = a := shapeCast_self a _
  unfold k1_pay1
  show max (shapeCast S4000x128 a shapeCasts_S4000x128_S4000x128 (ix2 p q)
      + FloatOps.matmul DW none (truncf .bf16 x bitsLt_bf16_f32) (truncf .bf16 ws bitsLt_bf16_f32) (constant (F := Ideal) S4000x128 .f32 0x00000000#32) (ix2 p q)
        * (keepBit (u (ix2 p q)) * invKeep)) (Ideal.ofBits .f32 0x00000000#32) = _
  rw [hmm, hsc]
  rfl

end Cert.KernelIdeal.Bodies

end
-- ==== Proof.Region1.lean ====
/-
  The second region's output array. At grid point t the output window's block is rows 4000 t … 4000 t + 3999 of the
  result, the blocks of the aggregate, of the node features and of the dropout draws are the same rows of their arrays,
  and the weight's block is the whole weight. So what point t writes back is those rows of ONE function of the arrays
  as the region finds them — element (n, c) is
      max (agg[n,c] + (∑ k, x[n,k] * ws[k,c]) * (keep(u[n,c]) * scale), 0) —
  and since the 25 blocks tile the 100000 rows, the array ends holding that function.
-/
import proofs.«142786_j206158430367_2_alg».proof.Proof.Gen.KernelIdeal.Frame
import proofs.«142786_j206158430367_2_alg».proof.Proof.CombineBody

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Bodies

variable (V : (c : Dev nD) → (b : Ref sig .tc) → Buf (Elt Ideal) ((c : Thread nD τ).loc b))

theorem offsets_zero : (![0, 0] : Fin 2 → Nat) = fun _ => 0 := funext fun a => by fin_cases a <;> rfl

/-- The combined output as one function of the four arrays, element by element. -/
def combine (a x u : S100000x128.Idx → EReal) (ws : S128x128.Idx → EReal) : S100000x128.Idx → EReal := fun i =>
  max (a i + (∑ k : Fin 128, x (ix2 (i 0) k) * ws (ix2 k (i 1))) * (keepBit (u i) * invKeep)) (Ideal.ofBits .f32 0x00000000#32)

/-- The block index maps over the grid: the four row-tiled windows sit at block row t, the weight at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem point_lt (t : Fin cfg1.N) : t.val < 25 := by have h := t.isLt; have e : cfg1.N = 25 := N_1; omega

/-- Row p of point t's block is row 4000 t + p of the array. -/
def rowAt (t : Fin cfg1.N) (p : Fin 4000) : Fin 100000 := ⟨t.val * 4000 + p.val, by have := point_lt t; have := p.isLt; omega⟩

theorem emb0 (t : Fin cfg1.N) (p : Fin 4000) (q : Fin 128) : ((cfg1.win 0).blk t).view.emb (ix2 p q) = ix2 (rowAt t p) q := by
  obtain ⟨e0, e1, -⟩ := block_indices t
  funext a; apply Fin.ext
  match a with
  | ⟨0, _⟩ => show win1_0.index t (0 : Fin 2) * 4000 + 1 * p.val = t.val * 4000 + p.val; omega
  | ⟨1, _⟩ => show win1_0.index t (1 : Fin 2) * 128 + 1 * q.val = q.val; omega
theorem emb1 (t : Fin cfg1.N) (p : Fin 4000) (q : Fin 128) : ((cfg1.win 1).blk t).view.emb (ix2 p q) = ix2 (rowAt t p) q := by
  obtain ⟨-, -, e0, e1, -⟩ := block_indices t
  funext a; apply Fin.ext
  match a with
  | ⟨0, _⟩ => show win1_1.index t (0 : Fin 2) * 4000 + 1 * p.val = t.val * 4000 + p.val; omega
  | ⟨1, _⟩ => show win1_1.index t (1 : Fin 2) * 128 + 1 * q.val = q.val; omega
theorem emb2 (t : Fin cfg1.N) (p : Fin 4000) (q : Fin 128) : ((cfg1.win 2).blk t).view.emb (ix2 p q) = ix2 (rowAt t p) q := by
  obtain ⟨-, -, -, -, e0, e1, -⟩ := block_indices t
  funext a; apply Fin.ext
  match a with
  | ⟨0, _⟩ => show win1_2.index t (0 : Fin 2) * 4000 + 1 * p.val = t.val * 4000 + p.val; omega
  | ⟨1, _⟩ => show win1_2.index t (1 : Fin 2) * 128 + 1 * q.val = q.val; omega
theorem emb3 (t : Fin cfg1.N) (k : Fin 128) (q : Fin 128) : ((cfg1.win 3).blk t).view.emb (ix2 k q) = ix2 k q := by
  obtain ⟨-, -, -, -, -, -, e0, e1, -⟩ := block_indices t
  funext a; apply Fin.ext
  match a with
  | ⟨0, _⟩ => show win1_3.index t (0 : Fin 2) * 128 + 1 * k.val = k.val; omega
  | ⟨1, _⟩ => show win1_3.index t (1 : Fin 2) * 128 + 1 * q.val = q.val; omega
theorem emb4 (t : Fin cfg1.N) (p : Fin 4000) (q : Fin 128) : ((cfg1.win 4).blk t).view.emb (ix2 p q) = ix2 (rowAt t p) q := by
  obtain ⟨-, -, -, -, -, -, -, -, e0, e1⟩ := block_indices t
  funext a; apply Fin.ext
  match a with
  | ⟨0, _⟩ => show win1_4.index t (0 : Fin 2) * 4000 + 1 * p.val = t.val * 4000 + p.val; omega
  | ⟨1, _⟩ => show win1_4.index t (1 : Fin 2) * 128 + 1 * q.val = q.val; omega

/-- What point t writes back is block t of `combine` of the arrays as the region finds them. -/
theorem flushed_eq (c : Dev nD) (t : Fin cfg1.N) :
    (dat1 V c).flushed 4 t = ((cfg1.win 4).blk t).view.read (Elt Ideal)
      (combine (V c main_v20) (V c main_arg0) (V c main_arg4) (V c main_arg3)) := by
  show (cfg1.win 4).cut (grid1.coords t) ((dat1 V c).after 4 t) = _
  rw [after1_4]
  unfold out1_4
  rw [View.canon_unit_zero offsets_zero]
  simp only [View.ld_unit_zero (S := S4000x128) offsets_zero, View.ld_unit_zero (S := S128x128) offsets_zero]
  funext j
  obtain ⟨p, q, rfl⟩ : ∃ (p : Fin 4000) (q : Fin 128), j = ix2 p q := ⟨j 0, j 1, eq_ix2 j⟩
  show k1_pay1 (F := Ideal) (iblk1 V c 1 t) (iblk1 V c 3 t) (iblk1 V c 2 t) (iblk1 V c 0 t) (ix2 p q)
    = combine (V c main_v20) (V c main_arg0) (V c main_arg4) (V c main_arg3) (((cfg1.win 4).blk t).view.emb (ix2 p q))
  refine (combine_at (iblk1 V c 1 t) (iblk1 V c 3 t) (iblk1 V c 2 t) (iblk1 V c 0 t) p q).trans ?_
  rw [emb4]
  have ha : iblk1 V c 0 t (ix2 p q) = V c main_v20 (ix2 (rowAt t p) q) := by
    show V c main_v20 (((cfg1.win 0).blk t).view.emb (ix2 p q)) = _
    rw [emb0]
  have hu : iblk1 V c 2 t (ix2 p q) = V c main_arg4 (ix2 (rowAt t p) q) := by
    show V c main_arg4 (((cfg1.win 2).blk t).view.emb (ix2 p q)) = _
    rw [emb2]
  have hx : ∀ k : Fin 128, iblk1 V c 1 t (ix2 p k) = V c main_arg0 (ix2 (rowAt t p) k) := fun k => by
    show V c main_arg0 (((cfg1.win 1).blk t).view.emb (ix2 p k)) = _
    rw [emb1]
  have hw : ∀ k : Fin 128, iblk1 V c 3 t (ix2 k q) = V c main_arg3 (ix2 k q) := fun k => by
    show V c main_arg3 (((cfg1.win 3).blk t).view.emb (ix2 k q)) = _
    rw [emb3]
  rw [ha, hu]
  simp only [hx, hw]
  rfl

/-- An index of the array is in point t's block iff each coordinate is in the block's range on its axis. -/
theorem mem_blk (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v21).slice (win1_4.rect t)).set ↔ _
  rw [View.set_slice_whole, Rect.mem_set_unit]
  exact Iff.rfl

/-- Every element of the array is in the block of the point its row falls in. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 25 := N_1
  refine ⟨⟨(i 0).val / 4000, by omega⟩, flush1_4 _, ?_⟩
  rw [mem_blk]
  obtain ⟨-, -, -, -, -, -, -, -, e0, e1⟩ := block_indices ⟨(i 0).val / 4000, by omega⟩
  intro a
  match a with
  | ⟨0, _⟩ =>
    show win1_4.index _ (0 : Fin 2) * 4000 ≤ (i 0).val ∧ (i 0).val < win1_4.index _ (0 : Fin 2) * 4000 + 4000
    rw [e0]; show (i 0).val / 4000 * 4000 ≤ (i 0).val ∧ (i 0).val < (i 0).val / 4000 * 4000 + 4000; omega
  | ⟨1, _⟩ =>
    show win1_4.index _ (1 : Fin 2) * 128 ≤ (i 1).val ∧ (i 1).val < win1_4.index _ (1 : Fin 2) * 128 + 128
    rw [e1]; omega

/-- The output array after the region: `combine` of the arrays as the region finds them. -/
theorem final (c : Dev nD) :
    (dat1 V c).arrAt 4 cfg1.N = combine (V c main_v20) (V c main_arg0) (V c main_arg4) (V c main_arg3) :=
  (dat1 V c).arrAt_eq_of_cover 4 _ (fun t _ => flushed_eq V c t) cover

end Cert.KernelIdeal.Region1

end
-- ==== Proof.LibRowScatter.lean ====
/-
Row gather and row scatter-add of a matrix, read at an index.

`x[idx]` on the rows of a matrix `x : [N, C]` at an integer vector `idx : [E]` is a `stablehlo.gather` with offset_dims
`[1]`, collapsed_slice_dims `[0]`, start_index_map `[0]`, index_vector_dim 1 and slice_sizes `[1, C]` over the indices as
`[E, 1]`; a segment sum of `data : [E, C]` by `ids : [E]` into `N` rows is a `stablehlo.scatter` with an add body,
update_window_dims `[1]`, inserted_window_dims `[0]`, scatter_dims_to_operand_dims `[0]` and index_vector_dim 1 over the
ids as `[E, 1]`. This file gives each of the two, at the extended reals for the scatter, in closed form at an index.
-/
import Idealize.ShloMosaic.Lib.ValueIdx
import Idealize.ShloMosaic.PureOps.Ideal

noncomputable section

open scoped BigOperators

namespace Idealize.ShloMosaic.RowScatter

open Idealize.ShloMosaic Idealize.ShloMosaic.ValueIdx

/-! ## Row gather -/

section Gather
variable {α : Type}

/-- The dimension numbers of a row gather for an operand `[N, C]`, start indices `[E, 1]` and result `[E, C]`: the
    row axis is collapsed and indexed, the column axis is the one offset axis, a slice is one whole row. Their
    conditions `wf` are a parameter, so that any record with these fields is an instance whatever its proof. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into `[0, N − 1]`, and
    at the result's own column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    -- the row axis: collapsed, so no offset; not a batching axis; its start is the clamped index
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column axis: not indexed, so its start is 0; not a batching axis; its offset is the result's column
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hst : (rowGatherDims N E C wf).start (ix2 e c) idx 1 = 0 := by
      unfold GatherDims.start
      rw [dif_neg (show ¬ (1 : Fin 2) ∈ (rowGatherDims N E C wf).startIndexMap from
        fun h => absurd (List.mem_singleton.mp h) (show ¬ (1 : Fin 2) = 0 by decide))]
    have hk : (1 : Fin 2) ∈ (rowGatherDims N E C wf).sKept :=
      (GatherDims.mem_sKept _ _).mpr ⟨fun h => absurd (List.mem_singleton.mp h) (show ¬ (1 : Fin 2) = 0 by decide), List.not_mem_nil⟩
    have hoff : (rowGatherDims N E C wf).offCoord (ix2 e c) 1 = c.val := by
      unfold GatherDims.offCoord
      rw [dif_pos hk]
      rfl
    rw [hst, hoff]
    simp only [Nat.add_zero, Nat.zero_add]

end Gather

/-! ## Row scatter-add -/

section Scatter

/-- The dimension numbers of a row scatter for an operand `[N, C]`, scatter indices `[E, 1]` and updates `[E, C]`: the
    row axis is the inserted, indexed one, the column axis is the one window axis, an update is one whole row. Their
    conditions `wf` are a parameter, so that any record with these fields is an instance whatever its proof. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window starts at the update row's id `idx[j₀, 0]`, read signed and not clamped. -/
theorem rowScatter_start_row (idx : IVec ⟨2, ![E, 1]⟩ w) (j : (⟨2, ![E, C]⟩ : Shape).Idx) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no scatter index names, the window starts at 0. -/
theorem rowScatter_start_col (idx : IVec ⟨2, ![E, 1]⟩ w) (j : (⟨2, ![E, C]⟩ : Shape).Idx) :
    (rowScatterDims N E C wf).start j idx 1 = 0 := by
  unfold ScatterDims.start
  rw [dif_neg (show ¬ (1 : Fin 2) ∈ (rowScatterDims N E C wf).scatterDimsToOperandDims from
    fun h => absurd (List.mem_singleton.mp h) (show ¬ (1 : Fin 2) = 0 by decide))]

/-- The row axis is inserted: the window has no extent there. -/
theorem rowScatter_window_row (j : (⟨2, ![E, C]⟩ : Shape).Idx) : (rowScatterDims N E C wf).window j 0 = 0 := by
  unfold ScatterDims.window
  rw [dif_neg]
  intro h
  have h' : (0 : Fin 2) ∉ ([0] : List (Fin 2)) := by
    simpa [ScatterDims.sKept, Shape.kept, List.mem_filter] using h
  exact h' (List.mem_singleton.mpr rfl)

/-- On the column axis the window coordinate is the update's own column. -/
theorem rowScatter_window_col (j : (⟨2, ![E, C]⟩ : Shape).Idx) : (rowScatterDims N E C wf).window j 1 = (j 1).val := by
  unfold ScatterDims.window
  have hk : (1 : Fin 2) ∈ (rowScatterDims N E C wf).sKept := by
    simp [ScatterDims.sKept, Shape.kept, List.mem_filter]
  rw [dif_pos hk]
  rfl

/-- WHERE AN UPDATE ELEMENT LANDS: update `(j₀, j₁)` lands on operand element `(n, c)` exactly when its row's id, read
    signed, is `n` and its column is `c`; an id outside `[0, N)` lands nowhere. -/
theorem rowScatter_resultIdx_iff (idx : IVec ⟨2, ![E, 1]⟩ w) (j : (⟨2, ![E, C]⟩ : Shape).Idx) (n : Fin N) (c : Fin C) :
    (rowScatterDims N E C wf).resultIdx? j idx = some (ix2 n c)
      ↔ (idx (ix2 (j 0) (0 : Fin 1))).toInt = (n.val : Int) ∧ j 1 = c := by
  unfold ScatterDims.resultIdx?
  constructor
  · intro h
    split at h
    · have hf := Option.some.inj h
      have h0 := congrArg Fin.val (congrFun hf 0)
      have h1 := congrArg Fin.val (congrFun hf 1)
      rename_i hall
      have ha0 := hall 0
      have ha1 := hall 1
      simp only [rowScatter_start_row, rowScatter_start_col, rowScatter_window_row, rowScatter_window_col] at h0 h1 ha0 ha1
      refine ⟨?_, Fin.ext ?_⟩
      · change ((idx (ix2 (j 0) (0 : Fin 1))).toInt + ((0 : Nat) : Int)).toNat = n.val at h0
        omega
      · change ((0 : Int) + ((j 1).val : Int)).toNat = c.val at h1
        omega
    · cases h
  · rintro ⟨h0, h1⟩
    have hall : ∀ a : Fin 2, 0 ≤ (rowScatterDims N E C wf).start j idx a + (rowScatterDims N E C wf).window j a
        ∧ (rowScatterDims N E C wf).start j idx a + (rowScatterDims N E C wf).window j a
          < (⟨2, ![N, C]⟩ : Shape).size a := by
      intro a
      match a with
      | ⟨0, _⟩ =>
        show 0 ≤ (rowScatterDims N E C wf).start j idx 0 + (rowScatterDims N E C wf).window j 0
          ∧ (rowScatterDims N E C wf).start j idx 0 + (rowScatterDims N E C wf).window j 0 < (N : Int)
        rw [rowScatter_start_row, rowScatter_window_row, h0]
        have := n.isLt
        omega
      | ⟨1, _⟩ =>
        show 0 ≤ (rowScatterDims N E C wf).start j idx 1 + (rowScatterDims N E C wf).window j 1
          ∧ (rowScatterDims N E C wf).start j idx 1 + (rowScatterDims N E C wf).window j 1 < (C : Int)
        rw [rowScatter_start_col, rowScatter_window_col]
        have := idx2_lt1 j
        omega
    rw [dif_pos hall]
    congr 1
    funext a
    refine Fin.ext ?_
    match a with
    | ⟨0, _⟩ =>
      show ((rowScatterDims N E C wf).start j idx 0 + (rowScatterDims N E C wf).window j 0).toNat = n.val
      rw [rowScatter_start_row, rowScatter_window_row, h0]
      omega
    | ⟨1, _⟩ =>
      show ((rowScatterDims N E C wf).start j idx 1 + (rowScatterDims N E C wf).window j 1).toNat = c.val
      rw [rowScatter_start_col, rowScatter_window_col, ← h1]
      omega

/-- THE ROW SCATTER-ADD READ AT `(n, c)`: the operand element plus the sum, over the update rows `e` whose id
    `idx[e, 0]`, read signed and not clamped, is `n`, of the update at `(e, c)`. -/
theorem rowScatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatterDims N E C wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  have hterm : ∀ c' : Fin C,
      (if (rowScatterDims N E C wf).resultIdx? (ix2 e c') idx = some (ix2 n c) then upd (ix2 e c') else 0)
        = if c' = c then (if (idx (ix2 e (0 : Fin 1))).toInt = (n.val : Int) then upd (ix2 e c) else 0) else 0 := by
    intro c'
    have hiff := rowScatter_resultIdx_iff wf idx (ix2 e c') n c
    change _ ↔ (idx (ix2 e (0 : Fin 1))).toInt = (n.val : Int) ∧ c' = c at hiff
    by_cases hc : c' = c
    · subst hc
      rw [if_pos rfl]
      exact if_congr (hiff.trans (and_iff_left rfl)) rfl rfl
    · rw [if_neg hc, if_neg (fun h => hc (hiff.mp h).2)]
  rw [Finset.sum_congr rfl (fun c' _ => hterm c'), Finset.sum_ite_eq' Finset.univ c]
  rw [if_pos (Finset.mem_univ c)]

end Scatter

/-! ## A sum over `Fin (E + E)` in two halves -/

/-- A sum over `Fin (E + E)` is the sum over the first `E` indices plus the sum over the last `E` (Mathlib's
    `Fin.sum_univ_add` at equal halves). -/
theorem sum_fin_add_self {M : Type*} [AddCommMonoid M] (E : Nat) (f : Fin (E + E) → M) :
    ∑ e, f e = ∑ e : Fin E, f (Fin.castAdd E e) + ∑ e : Fin E, f (Fin.natAdd E e) :=
  Fin.sum_univ_add f

end Idealize.ShloMosaic.RowScatter

end
-- ==== Proof.Spec.lean ====
/-
  The vocabulary both programs' results are written in. N = 100000 nodes with 128 features, E = 600000 edges.
    mm x w        rows of x times a 128-by-128 weight: element (n, c) is ∑ k, x[n,k] * w[k,c];
    rowOf ids e   the row an id names when an array is indexed by it: the id read as a signed integer and clamped
                  into [0, N - 1];
    seg ids src y the segment sum at (n, c): over the edges e whose id ids[e], read as a signed integer, is n, the
                  sum of y at row rowOf src e and column c (an id outside [0, N) names no row and contributes nothing).
-/
import Idealize.ShloMosaic.Lib.ValueIdx
import Idealize.ShloMosaic.PureOps.Ideal

noncomputable section

open scoped BigOperators

namespace Cert.MsgPass

open Idealize.ShloMosaic Idealize.ShloMosaic.ValueIdx

/-- Node-by-feature arrays. -/
abbrev SN : Shape := ⟨2, ![100000, 128]⟩
/-- The square weights. -/
abbrev SW : Shape := ⟨2, ![128, 128]⟩
/-- Per-edge id vectors. -/
abbrev SE : Shape := ⟨1, ![600000]⟩

/-- Rows of `x` times the weight `w`. -/
def mm (x : SN.Idx → EReal) (w : SW.Idx → EReal) : SN.Idx → EReal := fun i =>
  ∑ k : Fin 128, x (ix2 (i 0) k) * w (ix2 k (i 1))

/-- The row edge `e`'s id names when an array of N rows is indexed by it: read signed, clamped into the array. -/
def rowOf (ids : SE.Idx → BitVec 32) (e : Fin 600000) : Fin 100000 :=
  ⟨min (ids (ix1 e)).toInt.toNat (100000 - 1), by omega⟩

/-- The segment sum at node `n`, column `c`: the rows `rowOf src e` of `y` over the edges whose `ids` name `n`. -/
def seg (ids src : SE.Idx → BitVec 32) (y : SN.Idx → EReal) (n : Fin 100000) (c : Fin 128) : EReal :=
  ∑ e : Fin 600000, if (ids (ix1 e)).toInt = (n.val : Int) then y (ix2 (rowOf src e) c) else 0

end Cert.MsgPass

end
-- ==== Proof.HostGlue.lean ====
/-
  What the two regions find in their buffers. Before the first region the host lays the two message weights side by
  side, w = [W_f | W_b]. Between the regions it gathers rows of the two products (row e of the forward messages is row
  senders[e] of x·W_f, row e of the backward messages row receivers[e] of x·W_b, a negative id counting from the end),
  stacks the two batches and adds every stacked row into the aggregate's row named by the stacked ids
  [receivers ; senders], starting from zero. No host operation writes an argument.
-/
import proofs.«142786_j206158430367_2_alg».proof.Proof.Gen.KernelIdeal.Frame
import proofs.«142786_j206158430367_2_alg».proof.Proof.Region0
import proofs.«142786_j206158430367_2_alg».proof.Proof.LibRowScatter
import proofs.«142786_j206158430367_2_alg».proof.Proof.Spec
import Idealize.ShloMosaic.Lib.StableHlo.Run

set_option maxRecDepth 16384

noncomputable section

namespace Cert.KernelIdeal.HostGlue

open Idealize.ShloMosaic Idealize.ShloMosaic.TcCoe Idealize.SL.Sem Idealize.ShloMosaic.StableHlo
open Cert.KernelIdeal Cert.KernelIdeal.Gen Cert.MsgPass Idealize.ShloMosaic.RowScatter

/-- The two message weights side by side. -/
def sideBySide (wf wb : SW.Idx → EReal) : S128x256.Idx → EReal :=
  concatenate S128x256 1 [⟨S128x128, wf⟩, ⟨S128x128, wb⟩] concatenates_S128x128_S128x128_S128x256_d1

/-- Row ids as `x[ids]` reads them: a negative id counts from the end. -/
def wrapIds (ids : SE.Idx → BitVec 32) : SE.Idx → BitVec 32 :=
  select (cmpi .slt ids (broadcastInDim S600000 ![] bcast_S_S600000 (constantI S_ 32 0#32)))
    (addi ids (broadcastInDim S600000 ![] bcast_S_S600000 (constantI S_ 32 100000#32))) ids

/-- The zero array the aggregate starts from. -/
def zeros : SN.Idx → EReal :=
  broadcastInDim S100000x128 ![] bcast_S_S100000x128 (constant (F := Ideal) S_ .f32 0x00000000#32)

/-- The aggregate the second region finds, from the two products and the edge endpoints: the rows of `xf` named by the
    wrapped senders stacked on the rows of `xb` named by the wrapped receivers, added into the rows named by
    [receivers ; senders], from zero. -/
def aggregate (xf xb : SN.Idx → EReal) (snd rcv : SE.Idx → BitVec 32) : SN.Idx → EReal :=
  Ideal.hostScatterAdd (rowScatterDims 100000 1200000 128 scatter_S100000x128_S1200000x1_S1200000x128_1_0_0_1_wf)
    zeros
    (broadcastInDim S1200000x1 ![0] bcast_S1200000_S1200000x1_0
      (concatenate S1200000 0 [⟨S600000, rcv⟩, ⟨S600000, snd⟩] concatenates_S600000_S600000_S1200000_d0))
    (concatenate S1200000x128 0
      [⟨S600000x128, Host.gather (rowGatherDims 100000 600000 128 gather_S100000x128_S600000x1_S600000x128_1_0_n_n_0_1_1128_wf) xf
          (broadcastInDim S600000x1 ![0] bcast_S600000_S600000x1_0 (wrapIds snd))⟩,
       ⟨S600000x128, Host.gather (rowGatherDims 100000 600000 128 gather_S100000x128_S600000x1_S600000x128_1_0_n_n_0_1_1128_wf) xb
          (broadcastInDim S600000x1 ![0] bcast_S600000_S600000x1_0 (wrapIds rcv))⟩]
      concatenates_S600000x128_S600000x128_S1200000x128_d0)

/-! ## The first stretch -/

theorem weights_after (W : Valuation τ sig (Elt Ideal)) :
    after (hostOps0 (F := Ideal)) W (Proc.devRef .tc main_v0) = sideBySide (W (Proc.devRef .tc main_arg1)) (W (Proc.devRef .tc main_arg2)) := by
  after_results
  rfl
theorem x_after0 (W : Valuation τ sig (Elt Ideal)) :
    after (hostOps0 (F := Ideal)) W (Proc.devRef .tc main_arg0) = W (Proc.devRef .tc main_arg0) := by after_results
theorem ws_after0 (W : Valuation τ sig (Elt Ideal)) :
    after (hostOps0 (F := Ideal)) W (Proc.devRef .tc main_arg3) = W (Proc.devRef .tc main_arg3) := by after_results
theorem u_after0 (W : Valuation τ sig (Elt Ideal)) :
    after (hostOps0 (F := Ideal)) W (Proc.devRef .tc main_arg4) = W (Proc.devRef .tc main_arg4) := by after_results
theorem snd_after0 (W : Valuation τ sig (Elt Ideal)) :
    after (hostOps0 (F := Ideal)) W (Proc.devRef .tc main_arg5) = W (Proc.devRef .tc main_arg5) := by after_results
theorem rcv_after0 (W : Valuation τ sig (Elt Ideal)) :
    after (hostOps0 (F := Ideal)) W (Proc.devRef .tc main_arg6) = W (Proc.devRef .tc main_arg6) := by after_results

/-! ## The second stretch -/

set_option maxRecDepth 8192 in
set_option maxHeartbeats 2000000 in
theorem agg_after (W : Valuation τ sig (Elt Ideal)) :
    after (hostOps1 (F := Ideal)) W (Proc.devRef .tc main_v20)
      = aggregate (W (Proc.devRef .tc main_v1_0)) (W (Proc.devRef .tc main_v1_1)) (W (Proc.devRef .tc main_arg5)) (W (Proc.devRef .tc main_arg6)) := by
  after_results_simp <;> rfl
theorem x_after1 (W : Valuation τ sig (Elt Ideal)) :
    after (hostOps1 (F := Ideal)) W (Proc.devRef .tc main_arg0) = W (Proc.devRef .tc main_arg0) := by after_results
theorem ws_after1 (W : Valuation τ sig (Elt Ideal)) :
    after (hostOps1 (F := Ideal)) W (Proc.devRef .tc main_arg3) = W (Proc.devRef .tc main_arg3) := by after_results
theorem u_after1 (W : Valuation τ sig (Elt Ideal)) :
    after (hostOps1 (F := Ideal)) W (Proc.devRef .tc main_arg4) = W (Proc.devRef .tc main_arg4) := by after_results

end Cert.KernelIdeal.HostGlue

end
-- ==== Proof.Entry.lean ====
/-
  The result array in terms of the launch memory. The second region finds the aggregate computed by the host from
  the first region's two products, and the node features, the dropout draws and the self-loop weight as launched;
  the first region finds the node features as launched and the two message weights side by side.
-/
import proofs.«142786_j206158430367_2_alg».proof.Proof.Gen.KernelIdeal.Frame
import proofs.«142786_j206158430367_2_alg».proof.Proof.Region0
import proofs.«142786_j206158430367_2_alg».proof.Proof.Region1
import proofs.«142786_j206158430367_2_alg».proof.Proof.HostGlue

set_option maxRecDepth 16384

noncomputable section

namespace Cert.KernelIdeal.Entry

open Idealize.ShloMosaic Idealize.ShloMosaic.TcCoe Idealize.SL.Sem
open Cert.KernelIdeal Cert.KernelIdeal.Gen Cert.KernelIdeal.HostGlue Cert.KernelIdeal.Region0 Cert.KernelIdeal.Region1

variable (m : (ℓ : Loc nD τ sig) → Buf (Elt Ideal) ℓ) (ρ : Dev nD → PrngReg)

/-! ## What the first region finds -/

theorem first_x (c : Dev nD) : V1 m ρ c main_arg0 = m ((c : Thread nD τ).loc main_arg0) := by
  show StableHlo.after hostOps0 (W0 m ρ c) (Proc.devRef .tc main_arg0) = _
  rw [x_after0]
theorem first_w (c : Dev nD) :
    V1 m ρ c main_v0 = sideBySide (m ((c : Thread nD τ).loc main_arg1)) (m ((c : Thread nD τ).loc main_arg2)) := by
  show StableHlo.after hostOps0 (W0 m ρ c) (Proc.devRef .tc main_v0) = _
  rw [weights_after]

/-! ## What the host finds between the regions -/

theorem mid_left (c : Dev nD) : W2 m ρ c (Proc.devRef .tc main_v1_0)
    = leftProduct (m ((c : Thread nD τ).loc main_arg0)) (sideBySide (m ((c : Thread nD τ).loc main_arg1)) (m ((c : Thread nD τ).loc main_arg2))) := by
  rw [show W2 m ρ c (Proc.devRef .tc main_v1_0) = (dat0 (V1 m ρ) c).arrAt 2 cfg0.N from W2_arr m ρ c 2,
    Region0.final_left (V1 m ρ) c, first_x, first_w]
theorem mid_right (c : Dev nD) : W2 m ρ c (Proc.devRef .tc main_v1_1)
    = rightProduct (m ((c : Thread nD τ).loc main_arg0)) (sideBySide (m ((c : Thread nD τ).loc main_arg1)) (m ((c : Thread nD τ).loc main_arg2))) := by
  rw [show W2 m ρ c (Proc.devRef .tc main_v1_1) = (dat0 (V1 m ρ) c).arrAt 3 cfg0.N from W2_arr m ρ c 3,
    Region0.final_right (V1 m ρ) c, first_x, first_w]
theorem mid_x (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (first_x m ρ c)
theorem mid_ws (c : Dev nD) : W2 m ρ c (Proc.devRef .tc main_arg3) = m ((c : Thread nD τ).loc main_arg3) :=
  (W2_of_ne m ρ c main_arg3 (by decide)).trans (ws_after0 (W0 m ρ c))
theorem mid_u (c : Dev nD) : W2 m ρ c (Proc.devRef .tc main_arg4) = m ((c : Thread nD τ).loc main_arg4) :=
  (W2_of_ne m ρ c main_arg4 (by decide)).trans (u_after0 (W0 m ρ c))
theorem mid_snd (c : Dev nD) : W2 m ρ c (Proc.devRef .tc main_arg5) = m ((c : Thread nD τ).loc main_arg5) :=
  (W2_of_ne m ρ c main_arg5 (by decide)).trans (snd_after0 (W0 m ρ c))
theorem mid_rcv (c : Dev nD) : W2 m ρ c (Proc.devRef .tc main_arg6) = m ((c : Thread nD τ).loc main_arg6) :=
  (W2_of_ne m ρ c main_arg6 (by decide)).trans (rcv_after0 (W0 m ρ c))

/-! ## What the second region finds -/

theorem second_agg (c : Dev nD) : V3 m ρ c main_v20
    = aggregate
        (leftProduct (m ((c : Thread nD τ).loc main_arg0)) (sideBySide (m ((c : Thread nD τ).loc main_arg1)) (m ((c : Thread nD τ).loc main_arg2))))
        (rightProduct (m ((c : Thread nD τ).loc main_arg0)) (sideBySide (m ((c : Thread nD τ).loc main_arg1)) (m ((c : Thread nD τ).loc main_arg2))))
        (m ((c : Thread nD τ).loc main_arg5)) (m ((c : Thread nD τ).loc main_arg6)) := by
  show StableHlo.after hostOps1 (W2 m ρ c) (Proc.devRef .tc main_v20) = _
  rw [agg_after, mid_left, mid_right, mid_snd, mid_rcv]
theorem second_x (c : Dev nD) : V3 m ρ c main_arg0 = m ((c : Thread nD τ).loc main_arg0) := by
  show StableHlo.after hostOps1 (W2 m ρ c) (Proc.devRef .tc main_arg0) = _
  rw [x_after1, mid_x]
theorem second_ws (c : Dev nD) : V3 m ρ c main_arg3 = m ((c : Thread nD τ).loc main_arg3) := by
  show StableHlo.after hostOps1 (W2 m ρ c) (Proc.devRef .tc main_arg3) = _
  rw [ws_after1, mid_ws]
theorem second_u (c : Dev nD) : V3 m ρ c main_arg4 = m ((c : Thread nD τ).loc main_arg4) := by
  show StableHlo.after hostOps1 (W2 m ρ c) (Proc.devRef .tc main_arg4) = _
  rw [u_after1, mid_u]

/-- The result array after the run, as one function of the launch memory. -/
theorem result_eq (c : Dev nD) : (dat1 (V3 m ρ) c).arrAt 4 cfg1.N
    = combine
        (aggregate
          (leftProduct (m ((c : Thread nD τ).loc main_arg0)) (sideBySide (m ((c : Thread nD τ).loc main_arg1)) (m ((c : Thread nD τ).loc main_arg2))))
          (rightProduct (m ((c : Thread nD τ).loc main_arg0)) (sideBySide (m ((c : Thread nD τ).loc main_arg1)) (m ((c : Thread nD τ).loc main_arg2))))
          (m ((c : Thread nD τ).loc main_arg5)) (m ((c : Thread nD τ).loc main_arg6)))
        (m ((c : Thread nD τ).loc main_arg0)) (m ((c : Thread nD τ).loc main_arg4)) (m ((c : Thread nD τ).loc main_arg3)) := by
  rw [Region1.final (V3 m ρ) c, second_agg, second_x, second_u, second_ws]

end Cert.KernelIdeal.Entry

end
-- ==== Proof.LibSegConcat.lean ====
/-
A segment sum over the concatenation of two batches of rows is the sum of the two batches' segment sums.

The ids of the two batches, `i1 i2 : [E]`, are concatenated along their one axis and read as a column `[E + E, 1]` through a
`broadcast_in_dim`; the updates `u1 u2 : [E, C]` are concatenated along the row axis. Summing, over all `E + E` rows, the
update at column `c` of the rows whose id is `n` splits at row `E` into the same sum over each batch.
-/
import Idealize.ShloMosaic.Lib.ValueIdx
import Idealize.ShloMosaic.Lib.Pipeline.Value
import Idealize.ShloMosaic.PureOps.Ideal

noncomputable section

open scoped BigOperators

namespace Idealize.ShloMosaic.RowScatter

open Idealize.ShloMosaic Idealize.ShloMosaic.ValueIdx

/-- A vector `ids : [E]` broadcast to a column `[E, 1]` reads, at `(e, 0)`, the vector at `e`. -/
theorem bcast_col_apply {E w : Nat} (hB : (⟨1, ![E]⟩ : Shape).BroadcastsInDim ⟨2, ![E, 1]⟩ (![0] : Fin 1 → Fin 2))
    (ids : (⟨1, ![E]⟩ : Shape).Idx → BitVec w) (e : Fin E) :
    broadcastInDim ⟨2, ![E, 1]⟩ ![0] hB ids (ix2 e (0 : Fin 1)) = ids (ix1 e) := by
  refine broadcastInDim_apply _ hB ids _ (ix1 e) ?_
  intro a
  match a with
  | ⟨0, _⟩ =>
    show e.val = if E = 1 then 0 else e.val
    split
    · have := e.isLt; omega
    · rfl

/-- THE SEGMENT SUM OF A CONCATENATION: over the `E + E` concatenated rows, the sum of the updates at column `c` of the
    rows whose id, read signed, is `n`, is that sum over the first batch plus that sum over the second. (`hE` names the
    concatenated extent, so that a literal extent is an instance without being evaluated.) -/
theorem segsum_concat {E E2 C w : Nat} (hE : E2 = E + E)
    (hI : Shape.Concatenates [(⟨1, ![E]⟩ : Shape), ⟨1, ![E]⟩] ⟨1, ![E2]⟩ 0)
    (hU : Shape.Concatenates [(⟨2, ![E, C]⟩ : Shape), ⟨2, ![E, C]⟩] ⟨2, ![E2, C]⟩ 0)
    (hB : (⟨1, ![E2]⟩ : Shape).BroadcastsInDim ⟨2, ![E2, 1]⟩ (![0] : Fin 1 → Fin 2))
    (i1 i2 : (⟨1, ![E]⟩ : Shape).Idx → BitVec w) (u1 u2 : (⟨2, ![E, C]⟩ : Shape).Idx → EReal) (n : Int) (c : Fin C) :
    (∑ e : Fin E2, if (broadcastInDim ⟨2, ![E2, 1]⟩ ![0] hB
            (concatenate ⟨1, ![E2]⟩ 0 [⟨⟨1, ![E]⟩, i1⟩, ⟨⟨1, ![E]⟩, i2⟩] hI) (ix2 e (0 : Fin 1))).toInt = n
          then concatenate ⟨2, ![E2, C]⟩ 0 [⟨⟨2, ![E, C]⟩, u1⟩, ⟨⟨2, ![E, C]⟩, u2⟩] hU (ix2 e c) else 0)
      = (∑ e : Fin E, if (i1 (ix1 e)).toInt = n then u1 (ix2 e c) else 0)
        + ∑ e : Fin E, if (i2 (ix1 e)).toInt = n then u2 (ix2 e c) else 0 := by
  subst hE
  rw [Fin.sum_univ_add]
  congr 1
  · -- the first E rows: both concatenations read their first piece at the same row
    refine Finset.sum_congr rfl fun e _ => ?_
    have h1 : broadcastInDim ⟨2, ![E + E, 1]⟩ ![0] hB
        (concatenate ⟨1, ![E + E]⟩ 0 [⟨⟨1, ![E]⟩, i1⟩, ⟨⟨1, ![E]⟩, i2⟩] hI) (ix2 (Fin.castAdd E e) (0 : Fin 1))
        = i1 (ix1 e) := by
      rw [bcast_col_apply]
      refine concatenate_pair_apply_left (t := ⟨1, ![E + E]⟩) 0 i1 i2 hI (ix1 (Fin.castAdd E e)) rfl (ix1 e) ?_
      intro b
      match b with
      | ⟨0, _⟩ => rfl
    have h2 : concatenate ⟨2, ![E + E, C]⟩ 0 [⟨⟨2, ![E, C]⟩, u1⟩, ⟨⟨2, ![E, C]⟩, u2⟩] hU (ix2 (Fin.castAdd E e) c)
        = u1 (ix2 e c) := by
      refine concatenate_pair_apply_left (t := ⟨2, ![E + E, C]⟩) 0 u1 u2 hU (ix2 (Fin.castAdd E e) c) rfl (ix2 e c) ?_
      intro b
      match b with
      | ⟨0, _⟩ => rfl
      | ⟨1, _⟩ => rfl
    rw [h1, h2]
  · -- the last E rows: both concatenations read their second piece, E rows up
    refine Finset.sum_congr rfl fun e _ => ?_
    have h1 : broadcastInDim ⟨2, ![E + E, 1]⟩ ![0] hB
        (concatenate ⟨1, ![E + E]⟩ 0 [⟨⟨1, ![E]⟩, i1⟩, ⟨⟨1, ![E]⟩, i2⟩] hI) (ix2 (Fin.natAdd E e) (0 : Fin 1))
        = i2 (ix1 e) := by
      rw [bcast_col_apply]
      refine concatenate_pair_apply_right (t := ⟨1, ![E + E]⟩) 0 i1 i2 hI (ix1 (Fin.natAdd E e)) rfl rfl (ix1 e) ?_ ?_
      · intro b hb
        match b, hb with
        | ⟨0, _⟩, hb => exact absurd rfl hb
      · show e.val + E = E + e.val
        omega
    have h2 : concatenate ⟨2, ![E + E, C]⟩ 0 [⟨⟨2, ![E, C]⟩, u1⟩, ⟨⟨2, ![E, C]⟩, u2⟩] hU (ix2 (Fin.natAdd E e) c)
        = u2 (ix2 e c) := by
      refine concatenate_pair_apply_right (t := ⟨2, ![E + E, C]⟩) 0 u1 u2 hU (ix2 (Fin.natAdd E e) c) rfl rfl (ix2 e c) ?_ ?_
      · intro b hb
        match b, hb with
        | ⟨0, _⟩, hb => exact absurd rfl hb
        | ⟨1, _⟩, _ => rfl
      · show e.val + E = E + e.val
        omega
    rw [h1, h2]

end Idealize.ShloMosaic.RowScatter

end
-- ==== Proof.RowFacts.lean ====
/-
  Row gathers and the stacked row scatter-add at the extents of this layer (N = 100000 rows, E = 600000 edges, 128
  columns), over the shared vocabulary. A gathered row is the row its id names; and adding the stacked batches
  [A ; B] of gathered rows into rows named by the stacked ids [ids₁ ; ids₂] gives, at every element, the starting value
  plus the segment sum of the first batch by ids₁ plus that of the second by ids₂.
-/
import proofs.«142786_j206158430367_2_alg».proof.Proof.LibRowScatter
import proofs.«142786_j206158430367_2_alg».proof.Proof.LibSegConcat
import proofs.«142786_j206158430367_2_alg».proof.Proof.Spec

noncomputable section

open scoped BigOperators

namespace Cert.MsgPass

open Idealize.ShloMosaic Idealize.ShloMosaic.ValueIdx Idealize.ShloMosaic.RowScatter

/-- A gathered row is the row its id names. -/
theorem gather_row (wf : GatherDims.WF ⟨2, ![100000, 128]⟩ ⟨2, ![600000, 1]⟩ ⟨2, ![600000, 128]⟩ [1] [0] [] [0] [] 1 ![1, 128])
    (hB : (⟨1, ![600000]⟩ : Shape).BroadcastsInDim ⟨2, ![600000, 1]⟩ (![0] : Fin 1 → Fin 2))
    (y : SN.Idx → EReal) (ids : SE.Idx → BitVec 32) (e : Fin 600000) (c : Fin 128) :
    Host.gather (rowGatherDims 100000 600000 128 wf) y (broadcastInDim ⟨2, ![600000, 1]⟩ ![0] hB ids) (ix2 e c)
      = y (ix2 (rowOf ids e) c) := by
  rw [rowGather_apply (by norm_num) wf y _ e c]
  refine congrArg (fun r : Fin 100000 => y (ix2 r c)) (Fin.ext ?_)
  show min (broadcastInDim ⟨2, ![600000, 1]⟩ ![0] hB ids (ix2 e (0 : Fin 1))).toInt.toNat (100000 - 1)
    = min (ids (ix1 e)).toInt.toNat (100000 - 1)
  rw [bcast_col_apply]

/-- The stacked scatter-add of two batches of gathered rows. -/
theorem stacked_scatter
    (wfS : ScatterDims.WF ⟨2, ![100000, 128]⟩ ⟨2, ![1200000, 1]⟩ ⟨2, ![1200000, 128]⟩ [1] [0] [0] 1)
    (wfG : GatherDims.WF ⟨2, ![100000, 128]⟩ ⟨2, ![600000, 1]⟩ ⟨2, ![600000, 128]⟩ [1] [0] [] [0] [] 1 ![1, 128])
    (hI : Shape.Concatenates [(⟨1, ![600000]⟩ : Shape), ⟨1, ![600000]⟩] ⟨1, ![1200000]⟩ 0)
    (hU : Shape.Concatenates [(⟨2, ![600000, 128]⟩ : Shape), ⟨2, ![600000, 128]⟩] ⟨2, ![1200000, 128]⟩ 0)
    (hB2 : (⟨1, ![1200000]⟩ : Shape).BroadcastsInDim ⟨2, ![1200000, 1]⟩ (![0] : Fin 1 → Fin 2))
    (hB : (⟨1, ![600000]⟩ : Shape).BroadcastsInDim ⟨2, ![600000, 1]⟩ (![0] : Fin 1 → Fin 2))
    (z ya yb : SN.Idx → EReal) (ids₁ ids₂ src₁ src₂ : SE.Idx → BitVec 32) (n : Fin 100000) (c : Fin 128) :
    Ideal.hostScatterAdd (rowScatterDims 100000 1200000 128 wfS) z
        (broadcastInDim ⟨2, ![1200000, 1]⟩ ![0] hB2 (concatenate ⟨1, ![1200000]⟩ 0 [⟨⟨1, ![600000]⟩, ids₁⟩, ⟨⟨1, ![600000]⟩, ids₂⟩] hI))
        (concatenate ⟨2, ![1200000, 128]⟩ 0
          [⟨⟨2, ![600000, 128]⟩, Host.gather (rowGatherDims 100000 600000 128 wfG) ya (broadcastInDim ⟨2, ![600000, 1]⟩ ![0] hB src₁)⟩,
           ⟨⟨2, ![600000, 128]⟩, Host.gather (rowGatherDims 100000 600000 128 wfG) yb (broadcastInDim ⟨2, ![600000, 1]⟩ ![0] hB src₂)⟩] hU)
        (ix2 n c)
      = z (ix2 n c) + (seg ids₁ src₁ ya n c + seg ids₂ src₂ yb n c) := by
  have h1 := rowScatterAdd_apply (N := 100000) (E := 1200000) (C := 128) wfS z
    (broadcastInDim ⟨2, ![1200000, 1]⟩ ![0] hB2 (concatenate ⟨1, ![1200000]⟩ 0 [⟨⟨1, ![600000]⟩, ids₁⟩, ⟨⟨1, ![600000]⟩, ids₂⟩] hI))
    (concatenate ⟨2, ![1200000, 128]⟩ 0
      [⟨⟨2, ![600000, 128]⟩, Host.gather (rowGatherDims 100000 600000 128 wfG) ya (broadcastInDim ⟨2, ![600000, 1]⟩ ![0] hB src₁)⟩,
       ⟨⟨2, ![600000, 128]⟩, Host.gather (rowGatherDims 100000 600000 128 wfG) yb (broadcastInDim ⟨2, ![600000, 1]⟩ ![0] hB src₂)⟩] hU)
    n c
  have h2 := segsum_concat (E := 600000) (E2 := 1200000) (C := 128) (w := 32) (by norm_num) hI hU hB2 ids₁ ids₂
    (Host.gather (rowGatherDims 100000 600000 128 wfG) ya (broadcastInDim ⟨2, ![600000, 1]⟩ ![0] hB src₁))
    (Host.gather (rowGatherDims 100000 600000 128 wfG) yb (broadcastInDim ⟨2, ![600000, 1]⟩ ![0] hB src₂))
    (n.val : Int) c
  refine h1.trans (congrArg (fun s => z (ix2 n c) + s) (h2.trans ?_))
  unfold seg
  refine congrArg₂ (· + ·) (Finset.sum_congr rfl fun e _ => ?_) (Finset.sum_congr rfl fun e _ => ?_)
  · rw [gather_row]
  · rw [gather_row]

end Cert.MsgPass

end
-- ==== Proof.KernelPieces.lean ====
/-
  Small facts about the kernel's host side: the side-by-side weight read in its left half is W_f and in its right half
  W_b, so the first region's two products are x·W_f and x·W_b; the aggregate starts from zero.
-/
import proofs.«142786_j206158430367_2_alg».proof.Proof.Region0
import proofs.«142786_j206158430367_2_alg».proof.Proof.HostGlue
import proofs.«142786_j206158430367_2_alg».proof.Proof.LibRowScatter
import proofs.«142786_j206158430367_2_alg».proof.Proof.LibSegConcat
import proofs.«142786_j206158430367_2_alg».proof.Proof.RowFacts
import proofs.«142786_j206158430367_2_alg».proof.Proof.Spec
import Idealize.ShloMosaic.Lib.Pipeline.Value

noncomputable section

namespace Cert.KernelIdeal.KernelValue

open Idealize.ShloMosaic Idealize.ShloMosaic.ValueIdx Idealize.ShloMosaic.RowScatter
open Cert.KernelIdeal Cert.KernelIdeal.Gen Cert.KernelIdeal.HostGlue Cert.KernelIdeal.Region0 Cert.MsgPass

variable (x : SN.Idx → EReal) (wf wb : SW.Idx → EReal)

/-- The side-by-side weight in its left half is the first weight. -/
theorem side_left (k c : Fin 128) : sideBySide wf wb (ix2 k (⟨c.val, by omega⟩ : Fin 256)) = wf (ix2 k c) := by
  unfold sideBySide
  exact concatenate_pair_apply_left (t := S128x256) (s₁ := S128x128) (s₂ := S128x128) 1 wf wb
    concatenates_S128x128_S128x128_S128x256_d1 (ix2 k (⟨c.val, by omega⟩ : Fin 256)) rfl (ix2 k c)
    (fun b => by match b with | ⟨0, _⟩ => rfl | ⟨1, _⟩ => rfl)

/-- The side-by-side weight in its right half is the second weight. -/
theorem side_right (k c : Fin 128) : sideBySide wf wb (ix2 k (⟨128 + c.val, by omega⟩ : Fin 256)) = wb (ix2 k c) := by
  unfold sideBySide
  exact concatenate_pair_apply_right (t := S128x256) (s₁ := S128x128) (s₂ := S128x128) 1 wf wb
    concatenates_S128x128_S128x128_S128x256_d1 (ix2 k (⟨128 + c.val, by omega⟩ : Fin 256)) rfl rfl (ix2 k c)
    (fun b hb => by
      match b with
      | ⟨0, _⟩ => rfl
      | ⟨1, _⟩ => exact absurd rfl hb)
    (by show c.val + 128 = 128 + c.val; omega)

/-- The first region's left product is x·W_f. -/
theorem left_is_mm : leftProduct x (sideBySide wf wb) = mm x wf := by
  funext i
  unfold leftProduct mm
  refine Finset.sum_congr rfl fun k _ => ?_
  exact congrArg (fun z => x (ix2 (i 0) k) * z) (side_left wf wb k (i 1))
/-- The first region's right product is x·W_b. -/
theorem right_is_mm : rightProduct x (sideBySide wf wb) = mm x wb := by
  funext i
  unfold rightProduct mm
  refine Finset.sum_congr rfl fun k _ => ?_
  exact congrArg (fun z => x (ix2 (i 0) k) * z) (side_right wf wb k (i 1))

/-- The zero the aggregate starts from. -/
theorem zero_at (n : Fin 100000) (c : Fin 128) : zeros (ix2 n c) = Ideal.ofBits .f32 0x00000000#32 :=
  broadcastInDim_apply _ bcast_S_S100000x128 (constant (F := Ideal) S_ .f32 0x00000000#32) (ix2 n c) ix0 (fun a => a.elim0)

end Cert.KernelIdeal.KernelValue

end
-- ==== Proof.KernelValue.lean ====
/-
  The kernel's result at element (n, c), in the shared vocabulary. The one scatter-add over the stacked batches
  [forward ; backward] with the stacked ids [receivers ; senders] is, at every element, zero plus the forward batch's
  segment sum by receiver plus the backward batch's segment sum by sender. Hence
      result[n,c] = max ((0 + (seg rcv snd' (x·W_f) + seg snd rcv' (x·W_b))) + (x·W_s)[n,c] * (keep(u[n,c]) * scale), 0).
-/
import proofs.«142786_j206158430367_2_alg».proof.Proof.KernelPieces
import proofs.«142786_j206158430367_2_alg».proof.Proof.Region1

noncomputable section

namespace Cert.KernelIdeal.KernelValue

open Idealize.ShloMosaic Idealize.ShloMosaic.ValueIdx Idealize.ShloMosaic.RowScatter
open Cert.KernelIdeal Cert.KernelIdeal.Gen Cert.KernelIdeal.Bodies Cert.KernelIdeal.HostGlue
open Cert.KernelIdeal.Region0 Cert.KernelIdeal.Region1 Cert.MsgPass

variable (x u : SN.Idx → EReal) (wf wb ws : SW.Idx → EReal) (snd rcv : SE.Idx → BitVec 32)

/-- The aggregate at an element: zero plus the two batches' segment sums. -/
theorem aggregate_at (xf xb : SN.Idx → EReal) (n : Fin 100000) (c : Fin 128) :
    aggregate xf xb snd rcv (ix2 n c)
      = Ideal.ofBits .f32 0x00000000#32 + (seg rcv (wrapIds snd) xf n c + seg snd (wrapIds rcv) xb n c) :=
  (stacked_scatter scatter_S100000x128_S1200000x1_S1200000x128_1_0_0_1_wf gather_S100000x128_S600000x1_S600000x128_1_0_n_n_0_1_1128_wf
    concatenates_S600000_S600000_S1200000_d0 concatenates_S600000x128_S600000x128_S1200000x128_d0
    bcast_S1200000_S1200000x1_0 bcast_S600000_S600000x1_0 zeros xf xb rcv snd (wrapIds snd) (wrapIds rcv) n c).trans
    (congrArg (fun z => z + (seg rcv (wrapIds snd) xf n c + seg snd (wrapIds rcv) xb n c)) (zero_at n c))

/-- The kernel's result at element (n, c). -/
theorem kernel_at (n : Fin 100000) (c : Fin 128) :
    combine (aggregate (leftProduct x (sideBySide wf wb)) (rightProduct x (sideBySide wf wb)) snd rcv) x u ws (ix2 n c)
      = max ((Ideal.ofBits .f32 0x00000000#32 + (seg rcv (wrapIds snd) (mm x wf) n c + seg snd (wrapIds rcv) (mm x wb) n c))
              + mm x ws (ix2 n c) * (keepBit (u (ix2 n c)) * invKeep))
          (Ideal.ofBits .f32 0x00000000#32) := by
  rw [left_is_mm, right_is_mm]
  unfold combine
  rw [aggregate_at]
  rfl

end Cert.KernelIdeal.KernelValue

end
-- ==== Proof.RefValue.lean ====
/-
The reference program's result at an element, in the vocabulary the two programs share (Proof/Spec.lean).

The reference gathers the rows of `x` the senders' (receivers') ids name, multiplies each gathered row by a weight,
segment-sums the products by the receivers' (senders') ids into an array of zeros, adds the two segment sums and the
self-loop product `x · ws` scaled by the dropout keep mask over its keep probability, and clamps below at zero. The
generated read-back gives every pointwise operation and every matrix product at an index; here the two row gathers
and the two scatter-adds are read with the general row lemmas, and the whole is assembled: at `(n, c)` the result is
`max ((0 + seg rcv snd' (x·wf)) + (0 + seg snd rcv' (x·wb)) + (x·ws) · keep / p) 0`, where `snd'` and `rcv'` are the id
vectors after the wrap of negative ids, kept opaque.
-/
import proofs.«142786_j206158430367_2_alg».proof.Proof.Gen.ReferenceIdeal.Read
import proofs.«142786_j206158430367_2_alg».proof.Proof.LibRowScatter
import proofs.«142786_j206158430367_2_alg».proof.Proof.LibSegConcat
import proofs.«142786_j206158430367_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.RowScatter Cert.MsgPass

/-! ## The printed records are the row records -/

/-- The program's gather record is the row gather's. -/
theorem gather_record : gather_S100000x128_S600000x1_S600000x128_1_0_n_n_0_1_1128
    = rowGatherDims 100000 600000 128 Facts₀.gather_S100000x128_S600000x1_S600000x128_1_0_n_n_0_1_1128_wf := rfl

/-- The program's scatter record is the row scatter's. -/
theorem scatter_record : scatter_S100000x128_S600000x1_S600000x128_1_0_0_1
    = rowScatterDims 100000 600000 128 Facts₀.scatter_S100000x128_S600000x1_S600000x128_1_0_0_1_wf := rfl

/-! ## The leaves -/

/-- The first scatter's operand is the zero array. -/
theorem v23_at (i : S100000x128.Idx) : val_main_v23 (F := Ideal) i = Ideal.ofBits .f32 0x00000000#32 := by
  rw [val_main_v23_apply, val_main_cst_4_apply]
  rfl

/-- The second scatter's operand is the zero array. -/
theorem v26_at (i : S100000x128.Idx) : val_main_v26 (F := Ideal) i = Ideal.ofBits .f32 0x00000000#32 := by
  rw [val_main_v26_apply, val_main_cst_5_apply]
  rfl

/-- The clamp's lower bound is the zero array. -/
theorem call0_v0_at (i : S100000x128.Idx) : val_main_call0_v0 (F := Ideal) i = Ideal.ofBits .f32 0x00000000#32 := by
  rw [val_main_call0_v0_apply, val_main_call0_cst_apply]
  rfl

/-- The keep probability, broadcast, as the comparison's right operand. -/
theorem v16_at (i : S100000x128.Idx) : val_main_v16 (F := Ideal) i = Ideal.ofBits .f32 0x3F4CCCCD#32 := by
  rw [val_main_v16_apply, val_main_cst_apply]
  rfl

/-- The keep probability, broadcast, as the divisor. -/
theorem v19_at (i : S100000x128.Idx) : val_main_v19 (F := Ideal) i = Ideal.ofBits .f32 0x3F4CCCCD#32 := by
  rw [val_main_v19_apply, val_main_cst_3_apply]
  rfl

/-! ## The id columns -/

/-- The wrapped senders' ids as a column, at `(e, 0)`. -/
theorem v5_at (snd : (⟨S600000, .i32⟩ : BufTy).Contents (Elt Ideal)) (e : Fin 600000) :
    val_main_v5 (F := Ideal) snd (ix2 e (0 : Fin 1)) = val_main_v4 (F := Ideal) snd (ix1 e) := by
  unfold val_main_v5
  exact bcast_col_apply Facts₀.bcast_S600000_S600000x1_0 _ e

/-- The wrapped receivers' ids as a column, at `(e, 0)`. -/
theorem v12_at (rcv : (⟨S600000, .i32⟩ : BufTy).Contents (Elt Ideal)) (e : Fin 600000) :
    val_main_v12 (F := Ideal) rcv (ix2 e (0 : Fin 1)) = val_main_v11 (F := Ideal) rcv (ix1 e) := by
  unfold val_main_v12
  exact bcast_col_apply Facts₀.bcast_S600000_S600000x1_0 _ e

/-- The receivers' ids as a column, at `(e, 0)`. -/
theorem v24_at (rcv : (⟨S600000, .i32⟩ : BufTy).Contents (Elt Ideal)) (e : Fin 600000) :
    val_main_v24 (F := Ideal) rcv (ix2 e (0 : Fin 1)) = rcv (ix1 e) := by
  unfold val_main_v24
  exact bcast_col_apply Facts₀.bcast_S600000_S600000x1_0 _ e

/-- The senders' ids as a column, at `(e, 0)`. -/
theorem v27_at (snd : (⟨S600000, .i32⟩ : BufTy).Contents (Elt Ideal)) (e : Fin 600000) :
    val_main_v27 (F := Ideal) snd (ix2 e (0 : Fin 1)) = snd (ix1 e) := by
  unfold val_main_v27
  exact bcast_col_apply Facts₀.bcast_S600000_S600000x1_0 _ e

/-! ## The gathered rows -/

/-- Edge `e`'s gathered sender row: row `rowOf snd' e` of `x`. -/
theorem v6_at (x : (⟨S100000x128, .f32⟩ : BufTy).Contents (Elt Ideal)) (snd : (⟨S600000, .i32⟩ : BufTy).Contents (Elt Ideal))
    (e : Fin 600000) (k : Fin 128) :
    val_main_v6 (F := Ideal) x snd (ix2 e k) = x (ix2 (rowOf (val_main_v4 (F := Ideal) snd) e) k) := by
  unfold val_main_v6
  rw [gather_record]
  have h := rowGather_apply (N := 100000) (E := 600000) (C := 128) (by omega)
    Facts₀.gather_S100000x128_S600000x1_S600000x128_1_0_n_n_0_1_1128_wf x (val_main_v5 (F := Ideal) snd) e k
  refine h.trans (congrArg (fun r : Fin 100000 => x (ix2 r k)) (Fin.ext ?_))
  show min (val_main_v5 (F := Ideal) snd (ix2 e (0 : Fin 1))).toInt.toNat (100000 - 1)
    = min (val_main_v4 (F := Ideal) snd (ix1 e)).toInt.toNat (100000 - 1)
  rw [v5_at]

/-- Edge `e`'s gathered receiver row: row `rowOf rcv' e` of `x`. -/
theorem v13_at (x : (⟨S100000x128, .f32⟩ : BufTy).Contents (Elt Ideal)) (rcv : (⟨S600000, .i32⟩ : BufTy).Contents (Elt Ideal))
    (e : Fin 600000) (k : Fin 128) :
    val_main_v13 (F := Ideal) x rcv (ix2 e k) = x (ix2 (rowOf (val_main_v11 (F := Ideal) rcv) e) k) := by
  unfold val_main_v13
  rw [gather_record]
  have h := rowGather_apply (N := 100000) (E := 600000) (C := 128) (by omega)
    Facts₀.gather_S100000x128_S600000x1_S600000x128_1_0_n_n_0_1_1128_wf x (val_main_v12 (F := Ideal) rcv) e k
  refine h.trans (congrArg (fun r : Fin 100000 => x (ix2 r k)) (Fin.ext ?_))
  show min (val_main_v12 (F := Ideal) rcv (ix2 e (0 : Fin 1))).toInt.toNat (100000 - 1)
    = min (val_main_v11 (F := Ideal) rcv (ix1 e)).toInt.toNat (100000 - 1)
  rw [v12_at]

/-! ## The products -/

/-- The self-loop product at `(n, c)`. -/
theorem v21_at (x : (⟨S100000x128, .f32⟩ : BufTy).Contents (Elt Ideal)) (ws : (⟨S128x128, .f32⟩ : BufTy).Contents (Elt Ideal))
    (n : Fin 100000) (c : Fin 128) :
    val_main_v21 (F := Ideal) x ws (ix2 n c) = mm x ws (ix2 n c) := by
  rw [val_main_v21_apply]
  unfold mm
  refine Finset.sum_congr rfl fun k _ => ?_
  have hl : lidx_main_v21 (ix2 n c) k = ix2 n k :=
    funext fun a => Fin.ext (by match a with | ⟨0, _⟩ => rfl | ⟨1, _⟩ => rfl)
  have hr : ridx_main_v21 (ix2 n c) k = ix2 k c :=
    funext fun a => Fin.ext (by match a with | ⟨0, _⟩ => rfl | ⟨1, _⟩ => rfl)
  rw [hl, hr]

/-- Edge `e`'s forward message at column `c`: the product `x · wf` at the sender's row. -/
theorem v14_at (x : (⟨S100000x128, .f32⟩ : BufTy).Contents (Elt Ideal)) (wf : (⟨S128x128, .f32⟩ : BufTy).Contents (Elt Ideal))
    (snd : (⟨S600000, .i32⟩ : BufTy).Contents (Elt Ideal)) (e : Fin 600000) (c : Fin 128) :
    val_main_v14 (F := Ideal) x wf snd (ix2 e c) = mm x wf (ix2 (rowOf (val_main_v4 (F := Ideal) snd) e) c) := by
  rw [val_main_v14_apply]
  unfold mm
  refine Finset.sum_congr rfl fun k _ => ?_
  have hl : lidx_main_v14 (ix2 e c) k = ix2 e k :=
    funext fun a => Fin.ext (by match a with | ⟨0, _⟩ => rfl | ⟨1, _⟩ => rfl)
  have hr : ridx_main_v14 (ix2 e c) k = ix2 k c :=
    funext fun a => Fin.ext (by match a with | ⟨0, _⟩ => rfl | ⟨1, _⟩ => rfl)
  rw [hl, hr, v6_at]

/-- Edge `e`'s backward message at column `c`: the product `x · wb` at the receiver's row. -/
theorem v15_at (x : (⟨S100000x128, .f32⟩ : BufTy).Contents (Elt Ideal)) (wb : (⟨S128x128, .f32⟩ : BufTy).Contents (Elt Ideal))
    (rcv : (⟨S600000, .i32⟩ : BufTy).Contents (Elt Ideal)) (e : Fin 600000) (c : Fin 128) :
    val_main_v15 (F := Ideal) x wb rcv (ix2 e c) = mm x wb (ix2 (rowOf (val_main_v11 (F := Ideal) rcv) e) c) := by
  rw [val_main_v15_apply]
  unfold mm
  refine Finset.sum_congr rfl fun k _ => ?_
  have hl : lidx_main_v15 (ix2 e c) k = ix2 e k :=
    funext fun a => Fin.ext (by match a with | ⟨0, _⟩ => rfl | ⟨1, _⟩ => rfl)
  have hr : ridx_main_v15 (ix2 e c) k = ix2 k c :=
    funext fun a => Fin.ext (by match a with | ⟨0, _⟩ => rfl | ⟨1, _⟩ => rfl)
  rw [hl, hr, v13_at]

/-! ## The segment sums -/

/-- The forward messages summed by receiver: zero plus the segment sum. -/
theorem v25_at (x : (⟨S100000x128, .f32⟩ : BufTy).Contents (Elt Ideal)) (wf : (⟨S128x128, .f32⟩ : BufTy).Contents (Elt Ideal))
    (snd rcv : (⟨S600000, .i32⟩ : BufTy).Contents (Elt Ideal)) (n : Fin 100000) (c : Fin 128) :
    val_main_v25 (F := Ideal) x wf snd rcv (ix2 n c)
      = Ideal.ofBits .f32 0x00000000#32 + seg rcv (val_main_v4 (F := Ideal) snd) (mm x wf) n c := by
  unfold val_main_v25
  rw [scatter_record]
  unfold Host.scatterAdd
  rw [Ideal.hostScatterAdd_def, rowScatterAdd_apply, v23_at]
  unfold seg
  refine congrArg (fun t : EReal => Ideal.ofBits .f32 0x00000000#32 + t) (Finset.sum_congr rfl fun e _ => ?_)
  rw [v24_at, v14_at]

/-- The backward messages summed by sender: zero plus the segment sum. -/
theorem v28_at (x : (⟨S100000x128, .f32⟩ : BufTy).Contents (Elt Ideal)) (wb : (⟨S128x128, .f32⟩ : BufTy).Contents (Elt Ideal))
    (snd rcv : (⟨S600000, .i32⟩ : BufTy).Contents (Elt Ideal)) (n : Fin 100000) (c : Fin 128) :
    val_main_v28 (F := Ideal) x wb snd rcv (ix2 n c)
      = Ideal.ofBits .f32 0x00000000#32 + seg snd (val_main_v11 (F := Ideal) rcv) (mm x wb) n c := by
  unfold val_main_v28
  rw [scatter_record]
  unfold Host.scatterAdd
  rw [Ideal.hostScatterAdd_def, rowScatterAdd_apply, v26_at]
  unfold seg
  refine congrArg (fun t : EReal => Ideal.ofBits .f32 0x00000000#32 + t) (Finset.sum_congr rfl fun e _ => ?_)
  rw [v27_at, v15_at]

/-! ## The result -/

/-- THE REFERENCE'S RESULT AT `(n, c)`. -/
theorem ref_at (x : (⟨S100000x128, .f32⟩ : BufTy).Contents (Elt Ideal)) (wf wb ws : (⟨S128x128, .f32⟩ : BufTy).Contents (Elt Ideal))
    (u : (⟨S100000x128, .f32⟩ : BufTy).Contents (Elt Ideal)) (snd rcv : (⟨S600000, .i32⟩ : BufTy).Contents (Elt Ideal))
    (n : Fin 100000) (c : Fin 128) :
    val_main_v31 (F := Ideal) x wf wb ws u snd rcv (ix2 n c)
      = max (((Ideal.ofBits .f32 0x00000000#32 + seg rcv (val_main_v4 (F := Ideal) snd) (mm x wf) n c)
              + (Ideal.ofBits .f32 0x00000000#32 + seg snd (val_main_v11 (F := Ideal) rcv) (mm x wb) n c))
             + mm x ws (ix2 n c) * Ideal.div (FloatOps.uitofp (F := Ideal) .f32
                 (FloatOps.cmpf (F := Ideal) (φ := .f32) .olt (u (ix2 n c)) (Ideal.ofBits .f32 0x3F4CCCCD#32)))
                 (Ideal.ofBits .f32 0x3F4CCCCD#32))
            (Ideal.ofBits .f32 0x00000000#32) := by
  rw [val_main_v31_apply, val_main_v30_apply, val_main_v29_apply, val_main_v22_apply, val_main_v20_apply,
    val_main_v18_apply, val_main_v17_apply, v16_at, v19_at, call0_v0_at, v21_at, v25_at, v28_at]
  simp only [Ideal.maximumf_def, Ideal.addf_def, Ideal.mulf_def, Ideal.hostDivf_def]

end Cert.ReferenceIdeal.RefValue

end
-- ==== Proof.KeepScale.lean ====
/-
The keep mask's scale. A dropout keep mask is the 0/1 value of a comparison bit. One program multiplies it by the
constant named as exactly `1 / D`, where `D = 13421773 / 2^24` is the real the f32 word `0x3F4CCCCD` denotes; the other
divides it by `D`. On both values of the bit the two agree: `0` either way, and `1 · (1 / D) = 1 / D`.
-/
import Idealize.ShloMosaic.PureOps.Ideal

noncomputable section

namespace Cert.KeepScale

open Idealize.ShloMosaic

/-- The f32 word `0x3F4CCCCD` (sign 0, exponent field 126, significand field 5033165) denotes
    `(2^23 + 5033165) · 2^(-24) = 13421773 / 16777216`. -/
theorem ofBits_keep : Ideal.ofBits .f32 0x3F4CCCCD#32 = ((13421773 / 16777216 : ℝ) : EReal) := by
  simp [Ideal.ofBits, Ideal.ieee, -EReal.coe_mul]; norm_num

/-- The bit, zero-extended and read signed, times `16777216 / 13421773` is the bit, read unsigned, divided by the
    real the word `0x3F4CCCCD` denotes: both are `0` at the bit `0` and `16777216 / 13421773` at the bit `1`. -/
theorem keep_scale (b : BitVec 1) :
    FloatOps.sitofp (F := Ideal) .f32 (b.setWidth 32) * ((16777216 / 13421773 : ℝ) : EReal)
      = Ideal.div (FloatOps.uitofp (F := Ideal) .f32 b) (Ideal.ofBits .f32 0x3F4CCCCD#32) := by
  rw [ofBits_keep, Ideal.div_coe (by norm_num : (13421773 / 16777216 : ℝ) ≠ 0)]
  have hinv : (1 / (13421773 / 16777216) : ℝ) = 16777216 / 13421773 := by norm_num
  rw [hinv]
  rcases BitVec.eq_zero_or_eq_one b with rfl | rfl
  · -- the bit 0: both factors on the left of the products are 0
    show ((((0#1 : BitVec 1).setWidth 32).toInt : ℝ) : EReal) * _ = (((0#1 : BitVec 1).toNat : ℝ) : EReal) * _
    have h1 : ((0#1 : BitVec 1).setWidth 32).toInt = 0 := by decide
    have h2 : (0#1 : BitVec 1).toNat = 0 := by decide
    rw [h1, h2]
    simp
  · -- the bit 1: zero-extended it reads 1 signed, and it reads 1 unsigned
    show ((((1#1 : BitVec 1).setWidth 32).toInt : ℝ) : EReal) * _ = (((1#1 : BitVec 1).toNat : ℝ) : EReal) * _
    have h1 : ((1#1 : BitVec 1).setWidth 32).toInt = 1 := by decide
    have h2 : (1#1 : BitVec 1).toNat = 1 := by decide
    rw [h1, h2]
    simp

end Cert.KeepScale

end
-- ==== Proof.Bridge.lean ====
/-
  The two results are one function. At element (n, c) the kernel's result is
      max ((0 + (A + B)) + M * (keep * scale), 0)
  and the reference's
      max (((0 + A) + (0 + B)) + M * (keep' / d), 0)
  with the same segment sums A, B and the same self-loop product M. The named scale is exactly 1 / d, so on either value
  of the comparison bit keep * scale = keep' / d; the zeros drop out of the sums; the wrapped id vectors are the same
  terms in both programs.
-/
import proofs.«142786_j206158430367_2_alg».proof.Proof.KernelValue
import proofs.«142786_j206158430367_2_alg».proof.Proof.RefValue
import proofs.«142786_j206158430367_2_alg».proof.Proof.KeepScale
import Idealize.ShloMosaic.PureOps.IdealRules
import Idealize.ShloMosaic.PureOps.Ideal.Laws

noncomputable section

namespace Cert.Bridge

open Idealize.ShloMosaic Idealize.ShloMosaic.ValueIdx Cert.MsgPass
open Cert.KernelIdeal.Bodies Cert.KernelIdeal.HostGlue Cert.KernelIdeal.Region0 Cert.KernelIdeal.Region1

/-- The named scale denotes 1 / d, d the real the dropout threshold's word encodes. -/
theorem inv_keep : invKeep = ((16777216 / 13421773 : ℝ) : EReal) :=
  IdealRules.named_const.ideal_named_scalar _ _ _ _ rfl

/-- Multiplying the 0/1 keep value by the named scale is dividing it by the threshold's value. -/
theorem keep_law (v : EReal) :
    keepBit v * invKeep
      = Ideal.div (FloatOps.uitofp (F := Ideal) .f32 (FloatOps.cmpf (F := Ideal) (φ := .f32) .olt v (Ideal.ofBits .f32 0x3F4CCCCD#32)))
          (Ideal.ofBits .f32 0x3F4CCCCD#32) := by
  unfold keepBit
  rw [inv_keep]
  exact Cert.KeepScale.keep_scale _

/-- Both programs wrap a negative id the same way. -/
theorem wrap_senders (ids : SE.Idx → BitVec 32) : Cert.ReferenceIdeal.Read.val_main_v4 (F := Ideal) ids = wrapIds ids := rfl
theorem wrap_receivers (ids : SE.Idx → BitVec 32) : Cert.ReferenceIdeal.Read.val_main_v11 (F := Ideal) ids = wrapIds ids := rfl

/-- The kernel's result as one function of the seven argument arrays. -/
def kernelResult (x u : SN.Idx → EReal) (wf wb ws : SW.Idx → EReal) (snd rcv : SE.Idx → BitVec 32) : SN.Idx → EReal :=
  combine (aggregate (leftProduct x (sideBySide wf wb)) (rightProduct x (sideBySide wf wb)) snd rcv) x u ws

/-- The reference's result is the kernel's. -/
theorem same_result (x u : SN.Idx → EReal) (wf wb ws : SW.Idx → EReal) (snd rcv : SE.Idx → BitVec 32) :
    Cert.ReferenceIdeal.Read.val_main_v31 (F := Ideal) x wf wb ws u snd rcv = kernelResult x u wf wb ws snd rcv := by
  funext i
  obtain ⟨n, c, rfl⟩ : ∃ (n : Fin 100000) (c : Fin 128), i = ix2 n c := ⟨i 0, i 1, eq_ix2 i⟩
  unfold kernelResult
  refine (Cert.ReferenceIdeal.RefValue.ref_at x wf wb ws u snd rcv n c).trans ?_
  refine Eq.trans ?_ (Cert.KernelIdeal.KernelValue.kernel_at x u wf wb ws snd rcv n c).symm
  rw [wrap_senders, wrap_receivers, keep_law, Ideal.ofBits_zero_f32]
  simp only [zero_add]

end Cert.Bridge

end
-- ==== Proof.lean ====
/-
  The certificate of the message-passing layer: out = relu (segment_sum (x[senders]·W_f, receivers)
  + segment_sum (x[receivers]·W_b, senders) + (x·W_s) * keep_mask / keep_prob).

  The kernel multiplies all N rows by [W_f | W_b] once (first region), lets the host gather rows of the two products
  by sender and by receiver, stack them and add them into one aggregate by the stacked ids [receivers ; senders], and
  combines aggregate, self-loop product and dropout mask (second region). The reference gathers rows of x first and
  multiplies afterwards, and adds two separate segment sums. Over the extended reals these are one function: a row of a
  product is the product of the row; a sum over the stacked batches is the sum of the two batches' sums; and the
  kernel's folded scale is named as exactly the reciprocal of the reference's divisor.

  Frames: the two kernels' are the generated ones; the reference's is its generated run with the result dropped.
  The idealization's one ledger entry is the named scale's statement.
-/
import proofs.«142786_j206158430367_2_alg».proof.Defs
import proofs.«142786_j206158430367_2_alg».proof.Proof.Gen.Kernel
import proofs.«142786_j206158430367_2_alg».proof.Proof.Gen.Kernel.Frame
import proofs.«142786_j206158430367_2_alg».proof.Proof.Gen.KernelIdeal
import proofs.«142786_j206158430367_2_alg».proof.Proof.Gen.KernelIdeal.Frame
import proofs.«142786_j206158430367_2_alg».proof.Proof.Gen.ReferenceIdeal
import proofs.«142786_j206158430367_2_alg».proof.Proof.Gen.Pre_finite_inputs
import proofs.«142786_j206158430367_2_alg».proof.Proof.Gen.ReferenceIdeal.Run
import proofs.«142786_j206158430367_2_alg».proof.Proof.Gen.ReferenceIdeal.Read
import proofs.«142786_j206158430367_2_alg».proof.Proof.KernelRun
import proofs.«142786_j206158430367_2_alg».proof.Proof.Entry
import proofs.«142786_j206158430367_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- The one ledger entry: the table gives the folded scale the value 1 / d. -/
theorem preserves : Cert.preserves_Kernel_KernelIdeal :=
  IdealRules.named_const.statement Cert.KernelIdeal.κ "inv_keep" .f32 0x3FA00000#32 ((16777216 / 13421773 : ℝ) : EReal) rfl

/-- Both idealized programs end with the same result array. -/
theorem algebraic : Cert.algebraic_KernelIdeal_ReferenceIdeal := by
  intro m ρ m' ρ' _ hagree
  refine ⟨fun c => Cert.Bridge.kernelResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Entry.result_eq m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v31_eq, h0, h1, h2, h3, h4, h5, h6]
    exact Cert.Bridge.same_result _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
